-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x100 : Shape := ⟨2, ![262144, 100]⟩
abbrev S100x32 : Shape := ⟨2, ![100, 32]⟩
abbrev S1x32 : Shape := ⟨2, ![1, 32]⟩
abbrev S32x10 : Shape := ⟨2, ![32, 10]⟩
abbrev S1x10 : Shape := ⟨2, ![1, 10]⟩
abbrev S_ : Shape := ⟨0, ![]⟩

class Facts : Prop where
  bcast_S_S262144x100 : S_.BroadcastsInDim S262144x100 (![] : Fin 0 → Fin S262144x100.rank)
  reducesTo_S262144x100_S_d0_1 : S262144x100.ReducesTo [0, 1] S_
  h_S_ : 0 < S_.numel
  bcast_S_S100x32 : S_.BroadcastsInDim S100x32 (![] : Fin 0 → Fin S100x32.rank)
  reducesTo_S100x32_S_d0_1 : S100x32.ReducesTo [0, 1] S_
  bcast_S_S1x32 : S_.BroadcastsInDim S1x32 (![] : Fin 0 → Fin S1x32.rank)
  reducesTo_S1x32_S_d0_1 : S1x32.ReducesTo [0, 1] S_
  bcast_S_S32x10 : S_.BroadcastsInDim S32x10 (![] : Fin 0 → Fin S32x10.rank)
  reducesTo_S32x10_S_d0_1 : S32x10.ReducesTo [0, 1] S_
  bcast_S_S1x10 : S_.BroadcastsInDim S1x10 (![] : Fin 0 → Fin S1x10.rank)
  reducesTo_S1x10_S_d0_1 : S1x10.ReducesTo [0, 1] S_

variable [Facts]

def fn_part1 {F : FTy → Type} [FloatOps F] (main_arg4 : FVec F S1x10 .f32) (main_v13 : IVec S_ 1) (main_v16 : IVec S32x10 1) : IVec S_ 1 :=
  let main_c_5 : IVec S_ 1 := constantI S_ 1 1#1
  let main_v17 : IVec S_ 1 := (fun x v => Host.reduce IntOp.andi x v reducesTo_S32x10_S_d0_1 h_S_) main_v16 main_c_5
  let main_v18 : IVec S_ 1 := andi main_v13 main_v17
  let main_v19 : FVec F S1x10 .f32 := Host.absf main_arg4
  let main_cst_6 : FVec F S_ .f32 := constant S_ .f32 0x7F800000#32
  let main_v20 : FVec F S1x10 .f32 := broadcastInDim S1x10 ![] bcast_S_S1x10 main_cst_6
  let main_v21 : IVec S1x10 1 := cmpf .olt main_v19 main_v20
  let main_c_7 : IVec S_ 1 := constantI S_ 1 1#1
  let main_v22 : IVec S_ 1 := (fun x v => Host.reduce IntOp.andi x v reducesTo_S1x10_S_d0_1 h_S_) main_v21 main_c_7
  let main_v23 : IVec S_ 1 := andi main_v18 main_v22
  main_v23

def fn {F : FTy → Type} [FloatOps F] (main_arg0 : FVec F S262144x100 .f32) (main_arg1 : FVec F S100x32 .f32) (main_arg2 : FVec F S1x32 .f32) (main_arg3 : FVec F S32x10 .f32) (main_arg4 : FVec F S1x10 .f32) : IVec S_ 1 :=
  let main_v0 : FVec F S262144x100 .f32 := Host.absf main_arg0
  let main_cst : FVec F S_ .f32 := constant S_ .f32 0x7F800000#32
  let main_v1 : FVec F S262144x100 .f32 := broadcastInDim S262144x100 ![] bcast_S_S262144x100 main_cst
  let main_v2 : IVec S262144x100 1 := cmpf .olt main_v0 main_v1
  let main_c : IVec S_ 1 := constantI S_ 1 1#1
  let main_v3 : IVec S_ 1 := (fun x v => Host.reduce IntOp.andi x v reducesTo_S262144x100_S_d0_1 h_S_) main_v2 main_c
  let main_v4 : FVec F S100x32 .f32 := Host.absf main_arg1
  let main_cst_0 : FVec F S_ .f32 := constant S_ .f32 0x7F800000#32
  let main_v5 : FVec F S100x32 .f32 := broadcastInDim S100x32 ![] bcast_S_S100x32 main_cst_0
  let main_v6 : IVec S100x32 1 := cmpf .olt main_v4 main_v5
  let main_c_1 : IVec S_ 1 := constantI S_ 1 1#1
  let main_v7 : IVec S_ 1 := (fun x v => Host.reduce IntOp.andi x v reducesTo_S100x32_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S32x10 .f32 := Host.absf main_arg3
  let main_cst_4 : FVec F S_ .f32 := constant S_ .f32 0x7F800000#32
  let main_v15 : FVec F S32x10 .f32 := broadcastInDim S32x10 ![] bcast_S_S32x10 main_cst_4
  let main_v16 : IVec S32x10 1 := cmpf .olt main_v14 main_v15
  fn_part1 (F := F) main_arg4 main_v13 main_v16
-- ==== Kernel.lean ====
abbrev S262144x100 : Shape := ⟨2, ![262144, 100]⟩
abbrev S100x32 : Shape := ⟨2, ![100, 32]⟩
abbrev S1x32 : Shape := ⟨2, ![1, 32]⟩
abbrev S32x10 : Shape := ⟨2, ![32, 10]⟩
abbrev S1x10 : Shape := ⟨2, ![1, 10]⟩
abbrev S100x262144 : Shape := ⟨2, ![100, 262144]⟩
abbrev S32x100 : Shape := ⟨2, ![32, 100]⟩
abbrev S10x32 : Shape := ⟨2, ![10, 32]⟩
abbrev S10x262144 : Shape := ⟨2, ![10, 262144]⟩
abbrev S100x32768 : Shape := ⟨2, ![100, 32768]⟩
abbrev S10x32768 : Shape := ⟨2, ![10, 32768]⟩
abbrev S32x32768 : Shape := ⟨2, ![32, 32768]⟩
abbrev S32x1 : Shape := ⟨2, ![32, 1]⟩
abbrev S10x1 : Shape := ⟨2, ![10, 1]⟩
abbrev S262144x10 : Shape := ⟨2, ![262144, 10]⟩

abbrev nBuf : Space → Nat
  | .hbm => 10
  | .vmem => 8
  | .smem => 0
  | _ => 0

abbrev bufTy : (tb : Table) → Fin (tcTables nBuf tb) → BufTy
  | .hbm, ⟨0, _⟩ => ⟨S262144x100, .f32⟩
  | .hbm, ⟨1, _⟩ => ⟨S100x32, .f32⟩
  | .hbm, ⟨2, _⟩ => ⟨S1x32, .f32⟩
  | .hbm, ⟨3, _⟩ => ⟨S32x10, .f32⟩
  | .hbm, ⟨4, _⟩ => ⟨S1x10, .f32⟩
  | .hbm, ⟨5, _⟩ => ⟨S100x262144, .f32⟩
  | .hbm, ⟨6, _⟩ => ⟨S32x100, .f32⟩
  | .hbm, ⟨7, _⟩ => ⟨S10x32, .f32⟩
  | .hbm, ⟨8, _⟩ => ⟨S10x262144, .f32⟩
  | .hbm, ⟨9, _⟩ => ⟨S262144x10, .f32⟩
  | .local _ .vmem, ⟨0, _⟩ => ⟨S100x32768, .f32⟩
  | .local _ .vmem, ⟨1, _⟩ => ⟨S100x32768, .f32⟩
  | .local _ .vmem, ⟨2, _⟩ => ⟨S32x100, .f32⟩
  | .local _ .vmem, ⟨3, _⟩ => ⟨S10x32, .f32⟩
  | .local _ .vmem, ⟨4, _⟩ => ⟨S1x32, .f32⟩
  | .local _ .vmem, ⟨5, _⟩ => ⟨S1x10, .f32⟩
  | .local _ .vmem, ⟨6, _⟩ => ⟨S10x32768, .f32⟩
  | .local _ .vmem, ⟨7, _⟩ => ⟨S10x32768, .f32⟩
  | _, _ => ⟨S262144x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S100x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10x32768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S262144x100_S100x262144_1_0 : S262144x100.Transposes [1, 0] S100x262144
  transposes_S100x32_S32x100_1_0 : S100x32.Transposes [1, 0] S32x100
  transposes_S32x10_S10x32_1_0 : S32x10.Transposes [1, 0] S10x32
  inb_S100x32768_S100x32768_0_0 : ∀ a, (![0, 0] : Fin 2 → Nat) a + S100x32768.size a ≤ S100x32768.size a
  h_S100x32768 : 0 < S100x32768.numel
  shapeCasts_S100x32768_S100x32768 : S100x32768.ShapeCasts S100x32768
  bitsLt_bf16_f32 : FTy.bits .bf16 < FTy.bits .f32
  inb_S32x100_S32x100_0_0 : ∀ a, (![0, 0] : Fin 2 → Nat) a + S32x100.size a ≤ S32x100.size a
  h_S32x100 : 0 < S32x100.numel
  shapeCasts_S32x100_S32x100 : S32x100.ShapeCasts S32x100
  inb_S1x32_S1x32_0_0 : ∀ a, (![0, 0] : Fin 2 → Nat) a + S1x32.size a ≤ S1x32.size a
  h_S1x32 : 0 < S1x32.numel
  transposes_S1x32_p1_0_S32x1 : S1x32.Transposes [1, 0] S32x1
  broadcasts_S32x1_S32x32768 : S32x1.Broadcasts S32x32768
  inb_S10x32_S10x32_0_0 : ∀ a, (![0, 0] : Fin 2 → Nat) a + S10x32.size a ≤ S10x32.size a
  h_S10x32 : 0 < S10x32.numel
  shapeCasts_S10x32_S10x32 : S10x32.ShapeCasts S10x32
  inb_S1x10_S1x10_0_0 : ∀ a, (![0, 0] : Fin 2 → Nat) a + S1x10.size a ≤ S1x10.size a
  h_S1x10 : 0 < S1x10.numel
  transposes_S1x10_p1_0_S10x1 : S1x10.Transposes [1, 0] S10x1
  broadcasts_S10x1_S10x32768 : S10x1.Broadcasts S10x32768
  inb_S10x32768_S10x32768_0_0 : ∀ a, (![0, 0] : Fin 2 → Nat) a + S10x32768.size a ≤ S10x32768.size a
  h_S10x32768 : 0 < S10x32768.numel
  transposes_S10x262144_S262144x10_1_0 : S10x262144.Transposes [1, 0] S262144x10
  dot_S32x100_S100x32768_S32x32768_1_0_0_1_n_n_wf : DotDims.WF S32x100 S100x32768 S32x32768 [1] [0] [0] [1] [] []
  dot_S10x32_S32x32768_S10x32768_1_0_0_1_n_n_wf : DotDims.WF S10x32 S32x32768 S10x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S100x32768.size a ≤ S100x262144.size a
  hwx0_0 : ∀ i : grid0.Coords, EltTy.bits .f32 = 32 ∨ (Rect.block (s := S100x262144) S100x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x100.size a ≤ S32x100.size a
  hwx0_1 : ∀ i : grid0.Coords, EltTy.bits .f32 = 32 ∨ (Rect.block (s := S32x100) S32x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x32.size a ≤ S10x32.size a
  hwx0_2 : ∀ i : grid0.Coords, EltTy.bits .f32 = 32 ∨ (Rect.block (s := S10x32) S10x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10x32768.size a ≤ S10x262144.size a
  hwx0_5 : ∀ i : grid0.Coords, EltTy.bits .f32 = 32 ∨ (Rect.block (s := S10x262144) S10x32768.size (cc0_transform_5 i) (hinb0_5 i)).WholeWords (EltTy.packing .f32)

variable [Facts₀]

def dot_S32x100_S100x32768_S32x32768_1_0_0_1_n_n : DotDims S32x100 S100x32768 S32x32768 where
  lhsContracting := [1]
  rhsContracting := [0]
  lhsNonContracting := [0]
  rhsNonContracting := [1]
  lhsBatch := []
  rhsBatch := []
  wf := dot_S32x100_S100x32768_S32x32768_1_0_0_1_n_n_wf
def dot_S10x32_S32x32768_S10x32768_1_0_0_1_n_n : DotDims S10x32 S32x32768 S10x32768 where
  lhsContracting := [1]
  rhsContracting := [0]
  lhsNonContracting := [0]
  rhsNonContracting := [1]
  lhsBatch := []
  rhsBatch := []
  wf := dot_S10x32_S32x32768_S10x32768_1_0_0_1_n_n_wf

abbrev win0_0 : Pipeline.Window sig grid0 :=
  Pipeline.Window.ofSpec (Memref.whole main_v0) S100x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S10x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S10x32768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x100 : Shape := ⟨2, ![262144, 100]⟩
abbrev S100x32 : Shape := ⟨2, ![100, 32]⟩
abbrev S1x32 : Shape := ⟨2, ![1, 32]⟩
abbrev S32x10 : Shape := ⟨2, ![32, 10]⟩
abbrev S1x10 : Shape := ⟨2, ![1, 10]⟩
abbrev S_ : Shape := ⟨0, ![]⟩
abbrev S100x128 : Shape := ⟨2, ![100, 128]⟩
abbrev S1 : Shape := ⟨1, ![1]⟩
abbrev S1x128 : Shape := ⟨2, ![1, 128]⟩
abbrev S2 : Shape := ⟨1, ![2]⟩
abbrev S128x128 : Shape := ⟨2, ![128, 128]⟩
abbrev S10 : Shape := ⟨1, ![10]⟩
abbrev S262144x128 : Shape := ⟨2, ![262144, 128]⟩
abbrev S4096x100 : Shape := ⟨2, ![4096, 100]⟩
abbrev S4096x128 : Shape := ⟨2, ![4096, 128]⟩
abbrev S262144x10 : Shape := ⟨2, ![262144, 10]⟩

abbrev nBuf : Space → Nat
  | .hbm => 39
  | .vmem => 7
  | .smem => 0
  | _ => 0

abbrev bufTy : (tb : Table) → Fin (tcTables nBuf tb) → BufTy
  | .hbm, ⟨0, _⟩ => ⟨S262144x100, .f32⟩
  | .hbm, ⟨1, _⟩ => ⟨S100x32, .f32⟩
  | .hbm, ⟨2, _⟩ => ⟨S1x32, .f32⟩
  | .hbm, ⟨3, _⟩ => ⟨S32x10, .f32⟩
  | .hbm, ⟨4, _⟩ => ⟨S1x10, .f32⟩
  | .hbm, ⟨5, _⟩ => ⟨S_, .f32⟩
  | .hbm, ⟨6, _⟩ => ⟨S100x128, .f32⟩
  | .hbm, ⟨7, _⟩ => ⟨S_, .i32⟩
  | .hbm, ⟨8, _⟩ => ⟨S1, .i32⟩
  | .hbm, ⟨9, _⟩ => ⟨S100x128, .f32⟩
  | .hbm, ⟨10, _⟩ => ⟨S_, .f32⟩
  | .hbm, ⟨11, _⟩ => ⟨S1x128, .f32⟩
  | .hbm, ⟨12, _⟩ => ⟨S_, .i32⟩
  | .hbm, ⟨13, _⟩ => ⟨S1, .i32⟩
  | .hbm, ⟨14, _⟩ => ⟨S1x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S_, .f32⟩
  | .hbm, ⟨21, _⟩ => ⟨S1x128, .f32⟩
  | .hbm, ⟨22, _⟩ => ⟨S_, .f32⟩
  | .hbm, ⟨23, _⟩ => ⟨S128x128, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S128x128, .f32⟩
  | .hbm, ⟨30, _⟩ => ⟨S10, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S128x128, .f32⟩
  | .hbm, ⟨37, _⟩ => ⟨S262144x128, .f32⟩
  | .hbm, ⟨38, _⟩ => ⟨S262144x10, .f32⟩
  | .local _ .vmem, ⟨0, _⟩ => ⟨S4096x100, .f32⟩
  | .local _ .vmem, ⟨1, _⟩ => ⟨S4096x100, .f32⟩
  | .local _ .vmem, ⟨2, _⟩ => ⟨S100x128, .f32⟩
  | .local _ .vmem, ⟨3, _⟩ => ⟨S1x128, .f32⟩
  | .local _ .vmem, ⟨4, _⟩ => ⟨S128x128, .f32⟩
  | .local _ .vmem, ⟨5, _⟩ => ⟨S4096x128, .f32⟩
  | .local _ .vmem, ⟨6, _⟩ => ⟨S4096x128, .f32⟩
  | _, _ => ⟨S262144x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_c_3 : Ref sig .tc := ⟨.hbm, 17, rfl⟩
abbrev main_v7 : Ref sig .tc := ⟨.hbm, 18, rfl⟩
abbrev main_v8 : Ref sig .tc := ⟨.hbm, 19, rfl⟩
abbrev main_cst_4 : Ref sig .tc := ⟨.hbm, 20, rfl⟩
abbrev main_v9 : Ref sig .tc := ⟨.hbm, 21, rfl⟩
abbrev main_cst_5 : Ref sig .tc := ⟨.hbm, 22, rfl⟩
abbrev main_v10 : Ref sig .tc := ⟨.hbm, 23, rfl⟩
abbrev main_c_6 : Ref sig .tc := ⟨.hbm, 24, rfl⟩
abbrev main_v11 : Ref sig .tc := ⟨.hbm, 25, rfl⟩
abbrev main_c_7 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_8 : Ref sig .tc := ⟨.hbm, 31, rfl⟩
abbrev main_v16 : Ref sig .tc := ⟨.hbm, 32, rfl⟩
abbrev main_c_9 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S100x128 : S_.BroadcastsInDim S100x128 (![] : Fin 0 → Fin S100x128.rank)
  bcast_S_S1 : S_.BroadcastsInDim S1 (![] : Fin 0 → Fin S1.rank)
  bcast_S_S1x128 : S_.BroadcastsInDim S1x128 (![] : Fin 0 → Fin S1x128.rank)
  concatenates_S1_S1_S2_d0 : Shape.Concatenates [S1, S1] S2 0
  bcast_S_S128x128 : S_.BroadcastsInDim S128x128 (![] : Fin 0 → Fin S128x128.rank)
  shapeCasts_S1x10_S10 : S1x10.ShapeCasts S10
  inb_S4096x100_S4096x100_0_0 : ∀ a, (![0, 0] : Fin 2 → Nat) a + S4096x100.size a ≤ S4096x100.size a
  h_S4096x100 : 0 < S4096x100.numel
  inb_S100x128_S100x128_0_0 : ∀ a, (![0, 0] : Fin 2 → Nat) a + S100x128.size a ≤ S100x128.size a
  h_S100x128 : 0 < S100x128.numel
  shapeCasts_S100x128_S100x128 : S100x128.ShapeCasts S100x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4096x128_S4096x128_0_0 : ∀ a, (![0, 0] : Fin 2 → Nat) a + S4096x128.size a ≤ S4096x128.size a
  h_S4096x128 : 0 < S4096x128.numel
  slices_S262144x128_S262144x10_0_0 : S262144x128.Slices ![0, 0] S262144x10
  scatter_S100x128_S1_S100x32_01_n_1_0_wf : ScatterDims.WF S100x128 S1 S100x32 [0, 1] [] [1] 0
  scatter_S1x128_S1_S1x32_01_n_1_0_wf : ScatterDims.WF S1x128 S1 S1x32 [0, 1] [] [1] 0
  scatter_S1x128_S2_S__n_01_01_0_wf : ScatterDims.WF S1x128 S2 S_ [] [0, 1] [0, 1] 0
  scatter_S128x128_S2_S32x10_01_n_01_0_wf : ScatterDims.WF S128x128 S2 S32x10 [0, 1] [] [0, 1] 0
  scatter_S128x128_S2_S10_0_0_01_0_wf : ScatterDims.WF S128x128 S2 S10 [0] [0] [0, 1] 0
  dot_S4096x100_S100x128_S4096x128_1_0_0_1_n_n_wf : DotDims.WF S4096x100 S100x128 S4096x128 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x100.size a ≤ S262144x100.size a
  hwx0_0 : ∀ i : grid0.Coords, EltTy.bits .f32 = 32 ∨ (Rect.block (s := S262144x100) S4096x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x128.size a ≤ S100x128.size a
  hwx0_1 : ∀ i : grid0.Coords, EltTy.bits .f32 = 32 ∨ (Rect.block (s := S100x128) S100x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S262144x128.size a
  hwx0_4 : ∀ i : grid0.Coords, EltTy.bits .f32 = 32 ∨ (Rect.block (s := S262144x128) S4096x128.size (cc0_transform_4 i) (hinb0_4 i)).WholeWords (EltTy.packing .f32)

variable [Facts₀]

def scatter_S100x128_S1_S100x32_01_n_1_0 : ScatterDims S100x128 S1 S100x32 where
  updateWindowDims := [0, 1]
  insertedWindowDims := []
  scatterDimsToOperandDims := [1]
  indexVectorDim := 0
  wf := scatter_S100x128_S1_S100x32_01_n_1_0_wf
def scatter_S1x128_S1_S1x32_01_n_1_0 : ScatterDims S1x128 S1 S1x32 where
  updateWindowDims := [0, 1]
  insertedWindowDims := []
  scatterDimsToOperandDims := [1]
  indexVectorDim := 0
  wf := scatter_S1x128_S1_S1x32_01_n_1_0_wf
def scatter_S1x128_S2_S__n_01_01_0 : ScatterDims S1x128 S2 S_ where
  updateWindowDims := []
  insertedWindowDims := [0, 1]
  scatterDimsToOperandDims := [0, 1]
  indexVectorDim := 0
  wf := scatter_S1x128_S2_S__n_01_01_0_wf
def scatter_S128x128_S2_S32x10_01_n_01_0 : ScatterDims S128x128 S2 S32x10 where
  updateWindowDims := [0, 1]
  insertedWindowDims := []
  scatterDimsToOperandDims := [0, 1]
  indexVectorDim := 0
  wf := scatter_S128x128_S2_S32x10_01_n_01_0_wf
def scatter_S128x128_S2_S10_0_0_01_0 : ScatterDims S128x128 S2 S10 where
  updateWindowDims := [0]
  insertedWindowDims := [0]
  scatterDimsToOperandDims := [0, 1]
  indexVectorDim := 0
  wf := scatter_S128x128_S2_S10_0_0_01_0_wf
def dot_S4096x100_S100x128_S4096x128_1_0_0_1_n_n : DotDims S4096x100 S100x128 S4096x128 where
  lhsContracting := [1]
  rhsContracting := [0]
  lhsNonContracting := [0]
  rhsNonContracting := [1]
  lhsBatch := []
  rhsBatch := []
  wf := dot_S4096x100_S100x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S4096x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S100x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.LibPlainDot.lean ====
/-
  A plain matrix product M×K by K×N into a zero accumulator, read at an entry over the extended reals: entry (p, q)
  is the sum over c of lhs (p, c) · rhs (c, q). The contraction index, a one-axis multi-index, is re-indexed to its
  one coordinate.
-/
import Idealize.ShloMosaic.Lib.ValueIdx
import Idealize.ShloMosaic.PureOps.Ideal.Laws

namespace Cert.LibPlainDot

open Idealize.ShloMosaic Idealize.ShloMosaic.ValueIdx

/-- The left operand's index at result entry `(p, q)` and contraction coordinate `c` is `(p, c)`. -/
theorem plain_lhsIdx (M K N : ℕ) (p : Fin M) (q : Fin N) (c : Fin K) :
    (DotDims.plain M K N).lhsIdx (ix2 p q) ((contrEquiv1 (DotDims.plain M K N) K rfl rfl).symm c) = ix2 p c := by
  funext a
  refine Fin.ext ?_
  match a with
  | ⟨0, _⟩ => rfl
  | ⟨1, _⟩ =>
    show ((DotDims.plain M K N).lhsIdx (ix2 p q) ((contrEquiv1 (DotDims.plain M K N) K rfl rfl).symm c) 1).val = c.val
    rw [(DotDims.plain M K N).lhsIdx_val_of_single (cl := 1) rfl]
    exact contrEquiv1_symm_val (DotDims.plain M K N) K rfl rfl c

/-- The right operand's index there is `(c, q)`. -/
theorem plain_rhsIdx (M K N : ℕ) (p : Fin M) (q : Fin N) (c : Fin K) :
    (DotDims.plain M K N).rhsIdx (ix2 p q) ((contrEquiv1 (DotDims.plain M K N) K rfl rfl).symm c) = ix2 c q := by
  funext a
  refine Fin.ext ?_
  match a with
  | ⟨0, _⟩ =>
    show ((DotDims.plain M K N).rhsIdx (ix2 p q) ((contrEquiv1 (DotDims.plain M K N) K rfl rfl).symm c) 0).val = c.val
    rw [(DotDims.plain M K N).rhsIdx_val_of_single (cr := 0) rfl]
    exact contrEquiv1_symm_val (DotDims.plain M K N) K rfl rfl c
  | ⟨1, _⟩ => rfl

/-- Entry `(p, q)` of a plain product into the zero accumulator is `∑ c, lhs (p, c) · rhs (c, q)`. -/
theorem matmul_plain_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ c : Fin K, lhs (ix2 p c) * rhs (ix2 c q) := by
  rw [Ideal.matmul_constant_zero_apply, ← Equiv.sum_comp (contrEquiv1 (DotDims.plain M K N) K rfl rfl).symm]
  refine Finset.sum_congr rfl fun c _ => ?_
  rw [plain_lhsIdx, plain_rhsIdx]

end Cert.LibPlainDot
-- ==== Proof.KerPayload.lean ====
/-
  The transposed kernel's body at one entry. With the batch on the lanes, entry (o, l) of the block it stores is
      ∑ h, w2ᵀ(o, h) · max (∑ i, w1ᵀ(h, i) · xᵀ(i, l) + b1(0, h)) 0  +  b2(0, o):
  the two products are plain matrix products into zero accumulators, the narrowing casts to bf16 are the identity on
  the extended reals, and each bias row is turned into a column and repeated along the lanes.
-/
import proofs.«162523_g2000401138181295_pallasbulk_285_12_alg».proof.Proof.Gen.KernelIdeal.Skeleton
import proofs.«162523_g2000401138181295_pallasbulk_285_12_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KerValue

open Idealize.ShloMosaic Idealize.ShloMosaic.ValueIdx Cert.KernelIdeal Cert.KernelIdeal.Gen
open Cert.LibPlainDot (matmul_plain_zero_apply)

/-- The first product's dimension numbers are the plain 32×100 by 100×32768 ones. -/
theorem dot_hidden_eq : dot_S32x100_S100x32768_S32x32768_1_0_0_1_n_n = DotDims.plain 32 100 32768 := rfl
/-- The second product's are the plain 10×32 by 32×32768 ones. -/
theorem dot_out_eq : dot_S10x32_S32x32768_S10x32768_1_0_0_1_n_n = DotDims.plain 10 32 32768 := rfl

/-- A column `[a, 1]` repeated along a second axis reads, at `(p, q)`, the column at `p`. -/
theorem broadcast_column_apply {a b : ℕ} {α : Type} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Entry `(o, l)` of the body's stored block, from the blocks it loads: `xt` the [100, 32768] tile of xᵀ, `w1t`,
    `w2t` the transposed weights, `b1`, `b2` the bias rows. -/
theorem payload_apply (xt : Vec Ideal S100x32768 .f32) (w1t : Vec Ideal S32x100 .f32) (b1 : Vec Ideal S1x32 .f32)
    (w2t : Vec Ideal S10x32 .f32) (b2 : Vec Ideal S1x10 .f32) (o : Fin 10) (l : Fin 32768) :
    k0_pay1 xt w1t b1 w2t b2 (ix2 o l)
      = (∑ h : Fin 32, w2t (ix2 o h)
            * max ((∑ i : Fin 100, w1t (ix2 h i) * xt (ix2 i l)) + b1 (ix2 (0 : Fin 1) h)) 0)
          + b2 (ix2 (0 : Fin 1) o) := by
  have hb1 : ∀ h : Fin 32, transpose S32x1 [1, 0] b1 transposes_S1x32_p1_0_S32x1 (ix2 h (0 : Fin 1)) = b1 (ix2 (0 : Fin 1) h) :=
    fun h => transpose_ix2_apply (a := 1) (b := 32) b1 transposes_S1x32_p1_0_S32x1 h 0
  have hb2 : transpose S10x1 [1, 0] b2 transposes_S1x10_p1_0_S10x1 (ix2 o (0 : Fin 1)) = b2 (ix2 (0 : Fin 1) o) :=
    transpose_ix2_apply (a := 1) (b := 10) b2 transposes_S1x10_p1_0_S10x1 o 0
  unfold k0_pay1
  simp only [matmul, dot_hidden_eq, dot_out_eq]
  simp only [addf_apply, matmul_plain_zero_apply, broadcast_column_apply, truncf_apply,
    shapeCast_self, maximumf_apply, broadcast_apply, Ideal.ofBits_def, Ideal.ofBits_zero_f32, hb1, hb2]

end Cert.KerValue

end
-- ==== Proof.KerBlocks.lean ====
/-
  The transposed kernel's output array after the run. Grid point t handles lanes 32768·t … 32768·t + 32767 of the
  batch: it loads that tile of xᵀ and the whole of the small operands, and writes back columns of the [10, 262144]
  array. So entry (o, b) of that array is the body's entry (o, b mod 32768) at the point b / 32768, which is
      ∑ h, w2ᵀ(o, h) · max (∑ k, w1ᵀ(h, k) · xᵀ(k, b) + b1(0, h)) 0 + b2(0, o)
  of the arrays the region finds; the eight points' blocks tile the array.
-/
import proofs.«162523_g2000401138181295_pallasbulk_285_12_alg».proof.Proof.Gen.KernelIdeal.Frame
import proofs.«162523_g2000401138181295_pallasbulk_285_12_alg».proof.Proof.KerPayload
import Idealize.ShloMosaic.Lib.Pipeline.Value

noncomputable section

namespace Cert.KerValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Entry `(o, b)` of the transposed result, from the transposed operands. -/
def outAt (XT : S100x262144.Idx → EReal) (W1T : S32x100.Idx → EReal) (W2T : S10x32.Idx → EReal)
    (B1 : S1x32.Idx → EReal) (B2 : S1x10.Idx → EReal) (o : Fin 10) (b : Fin 262144) : EReal :=
  (∑ h : Fin 32, W2T (ix2 o h) * max ((∑ k : Fin 100, W1T (ix2 h k) * XT (ix2 k b)) + B1 (ix2 (0 : Fin 1) h)) 0)
    + B2 (ix2 (0 : Fin 1) o)

/-- The transposed result as one array. -/
def outT (XT : S100x262144.Idx → EReal) (W1T : S32x100.Idx → EReal) (W2T : S10x32.Idx → EReal)
    (B1 : S1x32.Idx → EReal) (B2 : S1x10.Idx → EReal) : S10x262144.Idx → EReal :=
  fun i => outAt XT W1T W2T B1 B2 (i 0) (i 1)

/-- The body's entry `(o, l)` over blocks that agree with the arrays: the tile of xᵀ with lane `l` at column `b`, the
    small operands whole. -/
theorem entry_of_blocks (xt : Vec Ideal S100x32768 .f32) (w1t : Vec Ideal S32x100 .f32) (b1 : Vec Ideal S1x32 .f32)
    (w2t : Vec Ideal S10x32 .f32) (b2 : Vec Ideal S1x10 .f32)
    (XT : S100x262144.Idx → EReal) (W1T : S32x100.Idx → EReal) (W2T : S10x32.Idx → EReal)
    (B1 : S1x32.Idx → EReal) (B2 : S1x10.Idx → EReal) (o : Fin 10) (l : Fin 32768) (b : Fin 262144)
    (hx : ∀ k : Fin 100, xt (ix2 k l) = XT (ix2 k b)) (hw1 : w1t = W1T) (hw2 : w2t = W2T) (hb1 : b1 = B1)
    (hb2 : b2 = B2) :
    k0_pay1 xt w1t b1 w2t b2 (ix2 o l) = outAt XT W1T W2T B1 B2 o b := by
  subst hw1 hw2 hb1 hb2
  rw [payload_apply]
  unfold outAt
  simp only [hx]

theorem hz : (![0, 0] : Fin 2 → Nat) = fun _ => 0 := funext fun a => by fin_cases a <;> rfl

/-- The printed index maps over the eight points: the tile of xᵀ and the output block move along the lanes with the
    point, every other block is the whole of its array. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

theorem lane_lt (t : Fin cfg0.N) (l : Fin 32768) : t.val * 32768 + l.val < 262144 := by
  have hN : cfg0.N = 8 := N_0
  have := t.isLt
  have := l.isLt
  omega

/-- Lane `l` of point `t`'s tile of xᵀ is column `32768·t + l` of xᵀ. -/
theorem xt_block (c : Dev nD) (t : Fin cfg0.N) (k : Fin 100) (l : Fin 32768) :
    (iblk m c 0 t : Vec Ideal S100x32768 .f32) (ix2 k l)
      = (V m c main_v0 : S100x262144.Idx → EReal) (ix2 k ⟨t.val * 32768 + l.val, lane_lt t l⟩) := by
  obtain ⟨e00, e01, -⟩ := idx_facts t
  unfold iblk
  rw [View.read_apply]
  show V m c main_v0 _ = V m c main_v0 _
  refine congrArg (V m c main_v0) ?_
  funext a
  apply Fin.ext
  match a with
  | ⟨0, _⟩ => show win0_0.index t (0 : Fin 2) * 100 + 1 * k.val = k.val; omega
  | ⟨1, _⟩ => show win0_0.index t (1 : Fin 2) * 32768 + 1 * l.val = t.val * 32768 + l.val; omega

/-- The block of w1ᵀ is the whole of it, at every point. -/
theorem w1t_block (c : Dev nD) (t : Fin cfg0.N) :
    (iblk m c 1 t : Vec Ideal S32x100 .f32) = (V m c main_v1 : S32x100.Idx → EReal) := by
  obtain ⟨-, -, e10, e11, -⟩ := idx_facts t
  funext y
  unfold iblk
  rw [View.read_apply]
  show V m c main_v1 _ = V m c main_v1 y
  refine congrArg (V m c main_v1) ?_
  funext a
  apply Fin.ext
  match a with
  | ⟨0, _⟩ => show win0_1.index t (0 : Fin 2) * 32 + 1 * (y 0).val = (y 0).val; omega
  | ⟨1, _⟩ => show win0_1.index t (1 : Fin 2) * 100 + 1 * (y 1).val = (y 1).val; omega

/-- The block of w2ᵀ is the whole of it. -/
theorem w2t_block (c : Dev nD) (t : Fin cfg0.N) :
    (iblk m c 2 t : Vec Ideal S10x32 .f32) = (V m c main_v2 : S10x32.Idx → EReal) := by
  obtain ⟨-, -, -, -, e20, e21, -⟩ := idx_facts t
  funext y
  unfold iblk
  rw [View.read_apply]
  show V m c main_v2 _ = V m c main_v2 y
  refine congrArg (V m c main_v2) ?_
  funext a
  apply Fin.ext
  match a with
  | ⟨0, _⟩ => show win0_2.index t (0 : Fin 2) * 10 + 1 * (y 0).val = (y 0).val; omega
  | ⟨1, _⟩ => show win0_2.index t (1 : Fin 2) * 32 + 1 * (y 1).val = (y 1).val; omega

/-- The block of b1 is the whole of it. -/
theorem b1_block (c : Dev nD) (t : Fin cfg0.N) :
    (iblk m c 3 t : Vec Ideal S1x32 .f32) = (V m c main_arg2 : S1x32.Idx → EReal) := by
  obtain ⟨-, -, -, -, -, -, e30, e31, -⟩ := idx_facts t
  funext y
  unfold iblk
  rw [View.read_apply]
  show V m c main_arg2 _ = V m c main_arg2 y
  refine congrArg (V m c main_arg2) ?_
  funext a
  apply Fin.ext
  match a with
  | ⟨0, _⟩ => show win0_3.index t (0 : Fin 2) * 1 + 1 * (y 0).val = (y 0).val; omega
  | ⟨1, _⟩ => show win0_3.index t (1 : Fin 2) * 32 + 1 * (y 1).val = (y 1).val; omega

/-- The block of b2 is the whole of it. -/
theorem b2_block (c : Dev nD) (t : Fin cfg0.N) :
    (iblk m c 4 t : Vec Ideal S1x10 .f32) = (V m c main_arg4 : S1x10.Idx → EReal) := by
  obtain ⟨-, -, -, -, -, -, -, -, e40, e41, -⟩ := idx_facts t
  funext y
  unfold iblk
  rw [View.read_apply]
  show V m c main_arg4 _ = V m c main_arg4 y
  refine congrArg (V m c main_arg4) ?_
  funext a
  apply Fin.ext
  match a with
  | ⟨0, _⟩ => show win0_4.index t (0 : Fin 2) * 1 + 1 * (y 0).val = (y 0).val; omega
  | ⟨1, _⟩ => show win0_4.index t (1 : Fin 2) * 10 + 1 * (y 1).val = (y 1).val; omega

/-- Entry `(o, l)` of the output block at point `t` sits at `(o, 32768·t + l)` of the output array. -/
theorem out_emb (t : Fin cfg0.N) (o : Fin 10) (l : Fin 32768) :
    (((cfg0.win 5).blk t).view.emb (ix2 o l) : S10x262144.Idx) = ix2 o ⟨t.val * 32768 + l.val, lane_lt t l⟩ := by
  obtain ⟨-, -, -, -, -, -, -, -, -, -, e50, e51⟩ := idx_facts t
  funext a
  apply Fin.ext
  match a with
  | ⟨0, _⟩ => show win0_5.index t (0 : Fin 2) * 10 + 1 * o.val = o.val; omega
  | ⟨1, _⟩ => show win0_5.index t (1 : Fin 2) * 32768 + 1 * l.val = t.val * 32768 + l.val; omega

/-- The body's entry at point `t`, over the point's blocks, is the transposed result at the entry's place in the array. -/
theorem block_entry (c : Dev nD) (t : Fin cfg0.N) (y : S10x32768.Idx) :
    k0_pay1 (iblk m c 0 t) (iblk m c 1 t) (iblk m c 3 t) (iblk m c 2 t) (iblk m c 4 t) y
      = outT (V m c main_v0) (V m c main_v1) (V m c main_v2) (V m c main_arg2) (V m c main_arg4)
          (((cfg0.win 5).blk t).view.emb y) := by
  obtain ⟨o, l, rfl⟩ : ∃ (o : Fin 10) (l : Fin 32768), y = ix2 o l := ⟨y 0, y 1, eq_ix2 y⟩
  rw [out_emb]
  exact entry_of_blocks _ _ _ _ _ (V m c main_v0) (V m c main_v1) (V m c main_v2) (V m c main_arg2) (V m c main_arg4)
    o l ⟨t.val * 32768 + l.val, lane_lt t l⟩ (fun k => xt_block m c t k l) (w1t_block m c t) (w2t_block m c t)
    (b1_block m c t) (b2_block m c t)

/-- What point `t` writes back is block `t` of the transposed result of the arrays as the region finds them. -/
theorem flushed_eq (c : Dev nD) (t : Fin cfg0.N) :
    (dats m 0 c).flushed 5 t = ((cfg0.win 5).blk t).view.read (Elt Ideal)
      (outT (V m c main_v0) (V m c main_v1) (V m c main_v2) (V m c main_arg2) (V m c main_arg4)) := by
  show (cfg0.win 5).cut (grid0.coords t) ((dats m 0 c).after 5 t) = _
  rw [after0_5]
  unfold out0_5
  rw [View.canon_unit_zero hz]
  simp only [View.ld_unit_zero (S := S100x32768) hz, View.ld_unit_zero (S := S32x100) hz,
    View.ld_unit_zero (S := S1x32) hz, View.ld_unit_zero (S := S10x32) hz, View.ld_unit_zero (S := S1x10) hz]
  funext j
  exact block_entry m c t j

/-- An index of the output array is in point `t`'s block iff each coordinate is in the block's range on its axis. -/
theorem mem_blk (t : Fin cfg0.N) (i : S10x262144.Idx) :
    i ∈ ((cfg0.win 5).blk t).view.set ↔ ∀ a : Fin 2, win0_5.index t a * S10x32768.size a ≤ (i a).val
      ∧ (i a).val < win0_5.index t a * S10x32768.size a + S10x32768.size a := by
  show i ∈ ((View.whole main_v3).slice (win0_5.rect t)).set ↔ _
  rw [View.set_slice_whole, Rect.mem_set_unit]
  exact Iff.rfl

/-- Column `b` is in the block of point `b / 32768`: the eight blocks tile the array. -/
theorem cover (i : S10x262144.Idx) :
    ∃ t : Fin cfg0.N, (cfg0.win 5).flush t = true ∧ i ∈ ((cfg0.win 5).blk t).view.set := by
  have hi0 : (i 0).val < 10 := (i 0).isLt
  have hi1 : (i 1).val < 262144 := (i 1).isLt
  have hN : cfg0.N = 8 := N_0
  obtain ⟨t, ht⟩ : ∃ t : Fin cfg0.N, t.val = (i 1).val / 32768 := ⟨⟨(i 1).val / 32768, by omega⟩, rfl⟩
  obtain ⟨-, -, -, -, -, -, -, -, -, -, e50, e51⟩ := idx_facts t
  refine ⟨t, flush0_5 t, ?_⟩
  rw [mem_blk]
  intro a
  match a with
  | ⟨0, _⟩ =>
    show win0_5.index t (0 : Fin 2) * 10 ≤ (i 0).val ∧ (i 0).val < win0_5.index t (0 : Fin 2) * 10 + 10
    omega
  | ⟨1, _⟩ =>
    show win0_5.index t (1 : Fin 2) * 32768 ≤ (i 1).val ∧ (i 1).val < win0_5.index t (1 : Fin 2) * 32768 + 32768
    omega

/-- The output array after the run is the transposed result of the arrays as the region finds them. -/
theorem final (c : Dev nD) : (dats m 0 c).arrAt 5 cfg0.N
    = outT (V m c main_v0) (V m c main_v1) (V m c main_v2) (V m c main_arg2) (V m c main_arg4) :=
  (dats m 0 c).arrAt_eq_of_cover 5 _ (fun t _ => flushed_eq m c t) cover

end Cert.KerValue

end
-- ==== Proof.Spec.lean ====
/-
  The two-layer network at one entry, over the extended reals:
      y(b, o) = ∑ h<32, max (∑ i<100, x(b, i) · w1(i, h) + b1(0, h)) 0 · w2(h, o)  +  b2(0, o).
  Two arrangements compute it. The transposed one multiplies in the other order, equal because the product commutes.
  The padded one runs the hidden sum over 128 lanes with operands that are the real ones on lanes < 32, carry the
  second bias through lane 32 (first weights 0, first bias 1, so the lane is max (0 + 1) 0 = 1, and second weights
  b2), and are 0 on lanes > 32 (each such term is max (0 + 0) 0 · 0 = 0). Splitting the 128-lane sum into those three
  ranges gives the same value: only that x · 0 = 0, 0 · 0 = 0 and 1 · x = x on the extended reals, and that sums may
  be regrouped, is used, so nothing asks the entries to be finite.
-/
import Idealize.ShloMosaic.Lib.ValueIdx
import Idealize.ShloMosaic.PureOps.Ideal

noncomputable section

namespace Cert.Spec

open Idealize.ShloMosaic Idealize.ShloMosaic.ValueIdx

/-- The network's value at batch row `b` and output `o`. -/
def mlpAt (x : (⟨2, ![262144, 100]⟩ : Shape).Idx → EReal) (w1 : (⟨2, ![100, 32]⟩ : Shape).Idx → EReal)
    (b1 : (⟨2, ![1, 32]⟩ : Shape).Idx → EReal) (w2 : (⟨2, ![32, 10]⟩ : Shape).Idx → EReal)
    (b2 : (⟨2, ![1, 10]⟩ : Shape).Idx → EReal) (b : Fin 262144) (o : Fin 10) : EReal :=
  (∑ h : Fin 32, max ((∑ i : Fin 100, x (ix2 b i) * w1 (ix2 i h)) + b1 (ix2 (0 : Fin 1) h)) 0 * w2 (ix2 h o))
    + b2 (ix2 (0 : Fin 1) o)

/-- The network's value as one [262144, 10] array. -/
def mlp (x : (⟨2, ![262144, 100]⟩ : Shape).Idx → EReal) (w1 : (⟨2, ![100, 32]⟩ : Shape).Idx → EReal)
    (b1 : (⟨2, ![1, 32]⟩ : Shape).Idx → EReal) (w2 : (⟨2, ![32, 10]⟩ : Shape).Idx → EReal)
    (b2 : (⟨2, ![1, 10]⟩ : Shape).Idx → EReal) : (⟨2, ![262144, 10]⟩ : Shape).Idx → EReal :=
  fun i => mlpAt x w1 b1 w2 b2 (i 0) (i 1)

/-- The transposed arrangement: weights on the left of each product. -/
theorem transposed_entry (x : (⟨2, ![262144, 100]⟩ : Shape).Idx → EReal) (w1 : (⟨2, ![100, 32]⟩ : Shape).Idx → EReal)
    (b1 : (⟨2, ![1, 32]⟩ : Shape).Idx → EReal) (w2 : (⟨2, ![32, 10]⟩ : Shape).Idx → EReal)
    (b2 : (⟨2, ![1, 10]⟩ : Shape).Idx → EReal) (b : Fin 262144) (o : Fin 10) :
    (∑ h : Fin 32, w2 (ix2 h o) * max ((∑ k : Fin 100, w1 (ix2 k h) * x (ix2 b k)) + b1 (ix2 (0 : Fin 1) h)) 0)
        + b2 (ix2 (0 : Fin 1) o)
      = mlpAt x w1 b1 w2 b2 b o := by
  unfold mlpAt
  refine congrArg (· + b2 (ix2 (0 : Fin 1) o)) (Finset.sum_congr rfl fun h _ => ?_)
  rw [mul_comm]
  exact congrArg (fun s => max (s + b1 (ix2 (0 : Fin 1) h)) 0 * w2 (ix2 h o))
    (Finset.sum_congr rfl fun k _ => mul_comm _ _)

/-- A function of 128 lanes that is `T` on the first 32, `c` on lane 32 and 0 above. -/
def lanes (T : Fin 32 → EReal) (c : EReal) (k : Fin 128) : EReal :=
  if h : k.val < 32 then T ⟨k.val, h⟩ else if k.val = 32 then c else 0

/-- Its sum over the 128 lanes is the sum of `T` plus `c`. -/
theorem sum_lanes (T : Fin 32 → EReal) (c : EReal) : ∑ k : Fin 128, lanes T c k = (∑ h : Fin 32, T h) + c := by
  have e : ∑ k : Fin 128, lanes T c k
      = ∑ h : Fin 32, lanes T c (Fin.castAdd 96 h) + ∑ j : Fin 96, lanes T c (Fin.natAdd 32 j) :=
    Fin.sum_univ_add (fun k : Fin (32 + 96) => lanes T c k)
  have low : ∑ h : Fin 32, lanes T c (Fin.castAdd 96 h) = ∑ h : Fin 32, T h := by
    refine Finset.sum_congr rfl fun h _ => ?_
    unfold lanes
    rw [dif_pos (show (Fin.castAdd 96 h).val < 32 from h.isLt)]
    rfl
  have high : ∑ j : Fin 96, lanes T c (Fin.natAdd 32 j) = c := by
    have e2 : ∑ j : Fin 96, lanes T c (Fin.natAdd 32 j)
        = lanes T c (Fin.natAdd 32 (0 : Fin (95 + 1))) + ∑ j : Fin 95, lanes T c (Fin.natAdd 32 j.succ) :=
      Fin.sum_univ_succ (fun j : Fin (95 + 1) => lanes T c (Fin.natAdd 32 j))
    have v0 : (Fin.natAdd 32 (0 : Fin (95 + 1))).val = 32 := rfl
    have first : lanes T c (Fin.natAdd 32 (0 : Fin (95 + 1))) = c := by
      unfold lanes
      rw [dif_neg (by rw [v0]; omega), if_pos v0]
    have rest : ∑ j : Fin 95, lanes T c (Fin.natAdd 32 j.succ) = 0 := by
      refine Finset.sum_eq_zero fun j _ => ?_
      have v : (Fin.natAdd 32 j.succ).val = 32 + (j.val + 1) := rfl
      unfold lanes
      rw [dif_neg (by rw [v]; omega), if_neg (by rw [v]; omega)]
    rw [e2, first, rest, add_zero]
  rw [e, low, high]

/-- The padded arrangement: 128 hidden lanes over operands that are the real ones below lane 32, carry the second bias
    through lane 32, and vanish above. -/
theorem padded_entry (x : (⟨2, ![262144, 100]⟩ : Shape).Idx → EReal) (w1 : (⟨2, ![100, 32]⟩ : Shape).Idx → EReal)
    (b1 : (⟨2, ![1, 32]⟩ : Shape).Idx → EReal) (w2 : (⟨2, ![32, 10]⟩ : Shape).Idx → EReal)
    (b2 : (⟨2, ![1, 10]⟩ : Shape).Idx → EReal)
    (W1P : (⟨2, ![100, 128]⟩ : Shape).Idx → EReal) (B1P : (⟨2, ![1, 128]⟩ : Shape).Idx → EReal)
    (W2P : (⟨2, ![128, 128]⟩ : Shape).Idx → EReal) (b : Fin 262144) (o : Fin 10) (o' : Fin 128) (ho : o'.val = o.val)
    (hW1 : ∀ (i : Fin 100) (k : Fin 128), W1P (ix2 i k) = if h : k.val < 32 then w1 (ix2 i ⟨k.val, h⟩) else 0)
    (hB1 : ∀ k : Fin 128, B1P (ix2 (0 : Fin 1) k)
      = if h : k.val < 32 then b1 (ix2 (0 : Fin 1) ⟨k.val, h⟩) else if k.val = 32 then 1 else 0)
    (hW2 : ∀ k : Fin 128, W2P (ix2 k o')
      = if h : k.val < 32 then w2 (ix2 ⟨k.val, h⟩ o) else if k.val = 32 then b2 (ix2 (0 : Fin 1) o) else 0) :
    (∑ k : Fin 128, max ((∑ i : Fin 100, x (ix2 b i) * W1P (ix2 i k)) + B1P (ix2 (0 : Fin 1) k)) 0 * W2P (ix2 k o'))
      = mlpAt x w1 b1 w2 b2 b o := by
  have key : ∀ k : Fin 128,
      max ((∑ i : Fin 100, x (ix2 b i) * W1P (ix2 i k)) + B1P (ix2 (0 : Fin 1) k)) 0 * W2P (ix2 k o')
        = lanes (fun h => max ((∑ i : Fin 100, x (ix2 b i) * w1 (ix2 i h)) + b1 (ix2 (0 : Fin 1) h)) 0 * w2 (ix2 h o))
            (b2 (ix2 (0 : Fin 1) o)) k := by
    intro k
    unfold lanes
    rw [hB1 k, hW2 k]
    simp only [hW1]
    by_cases h : k.val < 32
    · simp only [dif_pos h]
    · simp only [dif_neg h, mul_zero, Finset.sum_const_zero, zero_add]
      by_cases h2 : k.val = 32
      · simp only [if_pos h2]
        rw [max_eq_left (zero_le_one' EReal), one_mul]
      · simp only [if_neg h2]
        rw [max_self, zero_mul]
  rw [Finset.sum_congr rfl fun k _ => key k, sum_lanes]
  rfl

end Cert.Spec

end
-- ==== Proof.KerRun.lean ====
/-
  The transposed kernel's whole program, read as a value. Before the region the host transposes x, w1 and w2; the region
  leaves the [10, 262144] array at the transposed result of those; after it the host transposes that array back. Entry
  (b, o) of the program's result is therefore entry (o, b) of the region's array, with xᵀ(k, b) = x(b, k),
  w1ᵀ(h, k) = w1(k, h) and w2ᵀ(o, h) = w2(h, o): the network's value with each product's factors in the other order.
-/
import proofs.«162523_g2000401138181295_pallasbulk_285_12_alg».proof.Proof.Gen.KernelIdeal.Frame
import proofs.«162523_g2000401138181295_pallasbulk_285_12_alg».proof.Proof.KerBlocks
import proofs.«162523_g2000401138181295_pallasbulk_285_12_alg».proof.Proof.Spec
import Idealize.ShloMosaic.Lib.StableHlo.Run
import Idealize.ShloMosaic.Lib.ValueLayout

noncomputable section

namespace Cert.KerValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The region finds xᵀ: the host's transpose of the first argument. -/
theorem V_xt (c : Dev nD) : (V m c main_v0 : S100x262144.Idx → EReal)
    = transpose S100x262144 [1, 0] (m ((c : Thread nD τ).loc main_arg0)) transposes_S262144x100_S100x262144_1_0 := by
  show StableHlo.after hostOps0 (fun b => m (c, b)) (Proc.devRef .tc main_v0) = _
  after_results

/-- It finds w1ᵀ. -/
theorem V_w1t (c : Dev nD) : (V m c main_v1 : S32x100.Idx → EReal)
    = transpose S32x100 [1, 0] (m ((c : Thread nD τ).loc main_arg1)) transposes_S100x32_S32x100_1_0 := by
  show StableHlo.after hostOps0 (fun b => m (c, b)) (Proc.devRef .tc main_v1) = _
  after_results

/-- It finds w2ᵀ. -/
theorem V_w2t (c : Dev nD) : (V m c main_v2 : S10x32.Idx → EReal)
    = transpose S10x32 [1, 0] (m ((c : Thread nD τ).loc main_arg3)) transposes_S32x10_S10x32_1_0 := by
  show StableHlo.after hostOps0 (fun b => m (c, b)) (Proc.devRef .tc main_v2) = _
  after_results

/-- After the region the host transposes the region's output array: that is the program's result. -/
theorem tail_eq (c : Dev nD) :
    Pipeline.afterTail₀ cfgs (dats m) 0 (V0 m) [hostOps1] c main_v4
      = transpose S262144x10 [1, 0] ((dats m 0 c).arrAt 5 cfg0.N) transposes_S10x262144_S262144x10_1_0 := by
  unfold Pipeline.afterTail₀
  show StableHlo.after hostOps1 _ (Proc.devRef .tc main_v4) = _
  after_results
  rw [Pipeline.withArrays_arr spec0 launch0.win.arr_inj c _ _ 5]

/-- Transposing back the transposed result of the transposed operands gives the network's value. -/
theorem transposed_result (X : S262144x100.Idx → EReal) (W1 : S100x32.Idx → EReal) (B1 : S1x32.Idx → EReal)
    (W2 : S32x10.Idx → EReal) (B2 : S1x10.Idx → EReal) :
    transpose S262144x10 [1, 0]
        (outT (transpose S100x262144 [1, 0] X transposes_S262144x100_S100x262144_1_0)
          (transpose S32x100 [1, 0] W1 transposes_S100x32_S32x100_1_0)
          (transpose S10x32 [1, 0] W2 transposes_S32x10_S10x32_1_0) B1 B2)
        transposes_S10x262144_S262144x10_1_0
      = Cert.Spec.mlp X W1 B1 W2 B2 := by
  funext i
  obtain ⟨b, o, rfl⟩ : ∃ (b : Fin 262144) (o : Fin 10), i = ix2 b o := ⟨i 0, i 1, eq_ix2 i⟩
  refine (transpose_ix2_apply (a := 10) (b := 262144) _ transposes_S10x262144_S262144x10_1_0 b o).trans ?_
  have hx : ∀ k : Fin 100, transpose S100x262144 [1, 0] X transposes_S262144x100_S100x262144_1_0 (ix2 k b) = X (ix2 b k) :=
    fun k => transpose_ix2_apply (a := 262144) (b := 100) X transposes_S262144x100_S100x262144_1_0 k b
  have hw1 : ∀ (h : Fin 32) (k : Fin 100), transpose S32x100 [1, 0] W1 transposes_S100x32_S32x100_1_0 (ix2 h k) = W1 (ix2 k h) :=
    fun h k => transpose_ix2_apply (a := 100) (b := 32) W1 transposes_S100x32_S32x100_1_0 h k
  have hw2 : ∀ h : Fin 32, transpose S10x32 [1, 0] W2 transposes_S32x10_S10x32_1_0 (ix2 o h) = W2 (ix2 h o) :=
    fun h => transpose_ix2_apply (a := 32) (b := 10) W2 transposes_S32x10_S10x32_1_0 o h
  show outAt _ _ _ B1 B2 o b = Cert.Spec.mlpAt X W1 B1 W2 B2 b o
  unfold outAt
  simp only [hx, hw1, hw2]
  exact Cert.Spec.transposed_entry X W1 B1 W2 B2 b o

/-- The program's result is the network's value of the arguments as launched. -/
theorem result_eq (c : Dev nD) :
    Pipeline.afterTail₀ cfgs (dats m) 0 (V0 m) [hostOps1] c main_v4
      = Cert.Spec.mlp (m ((c : Thread nD τ).loc main_arg0)) (m ((c : Thread nD τ).loc main_arg1))
          (m ((c : Thread nD τ).loc main_arg2)) (m ((c : Thread nD τ).loc main_arg3))
          (m ((c : Thread nD τ).loc main_arg4)) := by
  rw [tail_eq, final, V_xt, V_w1t, V_w2t, V_main_arg2, V_main_arg4]
  exact transposed_result _ _ _ _ _

/-- The run: every weakly fair execution terminates with the result array at the network's value of the arguments,
    the arguments unchanged. -/
theorem run : θ_run defs (onTc (τ := τ) (main (F := Ideal))) ⟨m, fun _ => 0, ρ⟩ fun r => ∀ c : Dev nD,
      r.2.mem ((c.tc : Thread nD τ).loc main_v4)
        = Cert.Spec.mlp (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.KerValue

end
-- ==== Proof.RefPayload.lean ====
/-
  The padded reference kernel's body at one entry. With the batch on the rows and both feature axes padded to 128
  lanes, entry (r, j) of the block it stores is
      ∑ k, max (∑ i, x(r, i) · w1p(i, k) + b1p(0, k)) 0 · w2p(k, j),
  k over all 128 hidden lanes: two plain matrix products into zero accumulators and the bias row repeated down the rows.
-/
import proofs.«162523_g2000401138181295_pallasbulk_285_12_alg».proof.Proof.Gen.ReferenceIdeal.Skeleton
import proofs.«162523_g2000401138181295_pallasbulk_285_12_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.RefValue

open Idealize.ShloMosaic Idealize.ShloMosaic.ValueIdx Cert.ReferenceIdeal Cert.ReferenceIdeal.Gen
open Cert.LibPlainDot (matmul_plain_zero_apply)

/-- The first product's dimension numbers are the plain 4096×100 by 100×128 ones. -/
theorem dot_hidden_eq : dot_S4096x100_S100x128_S4096x128_1_0_0_1_n_n = DotDims.plain 4096 100 128 := rfl
/-- The second product's are the plain 4096×128 by 128×128 ones. -/
theorem dot_out_eq : dot_S4096x128_S128x128_S4096x128_1_0_0_1_n_n = DotDims.plain 4096 128 128 := rfl

/-- Entry `(r, j)` of the body's stored block, from the blocks it loads: `x` the [4096, 100] tile of rows, `w1p`,
    `b1p`, `w2p` the padded weights and bias. -/
theorem payload_apply (x : Vec Ideal S4096x100 .f32) (w1p : Vec Ideal S100x128 .f32) (b1p : Vec Ideal S1x128 .f32)
    (w2p : Vec Ideal S128x128 .f32) (r : Fin 4096) (j : Fin 128) :
    k0_pay1 x w1p b1p w2p (ix2 r j)
      = ∑ k : Fin 128, max ((∑ i : Fin 100, x (ix2 r i) * w1p (ix2 i k)) + b1p (ix2 (0 : Fin 1) k)) 0
            * w2p (ix2 k j) := by
  unfold k0_pay1
  simp only [matmul, dot_hidden_eq, dot_out_eq]
  simp only [addf_apply, matmul_plain_zero_apply, broadcastTo_1b_ab_apply, shapeCast_self, maximumf_apply,
    broadcast_apply, Ideal.ofBits_def, Ideal.ofBits_zero_f32]

end Cert.RefValue

end
-- ==== Proof.RefBlocks.lean ====
/-
  The padded reference kernel's output array after the run. Grid point t handles rows 4096·t … 4096·t + 4095 of the
  batch: it loads that tile of x and the whole of the padded operands, and writes back rows of the [262144, 128]
  array. So entry (r, j) of that array is the body's entry (r mod 4096, j) at the point r / 4096, which is
      ∑ k, max (∑ i, x(r, i) · w1p(i, k) + b1p(0, k)) 0 · w2p(k, j)      (k over all 128 hidden lanes)
  of the arrays the region finds; the sixty-four points' blocks tile the array.
-/
import proofs.«162523_g2000401138181295_pallasbulk_285_12_alg».proof.Proof.Gen.ReferenceIdeal.Frame
import proofs.«162523_g2000401138181295_pallasbulk_285_12_alg».proof.Proof.RefPayload
import Idealize.ShloMosaic.Lib.Pipeline.Value

noncomputable section

namespace Cert.RefValue

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Entry `(r, j)` of the padded result, from x and the padded operands. -/
def padAt (X : S262144x100.Idx → EReal) (W1P : S100x128.Idx → EReal) (B1P : S1x128.Idx → EReal)
    (W2P : S128x128.Idx → EReal) (r : Fin 262144) (j : Fin 128) : EReal :=
  ∑ k : Fin 128, max ((∑ i : Fin 100, X (ix2 r i) * W1P (ix2 i k)) + B1P (ix2 (0 : Fin 1) k)) 0 * W2P (ix2 k j)

/-- The padded result as one array. -/
def padOut (X : S262144x100.Idx → EReal) (W1P : S100x128.Idx → EReal) (B1P : S1x128.Idx → EReal)
    (W2P : S128x128.Idx → EReal) : S262144x128.Idx → EReal :=
  fun i => padAt X W1P B1P W2P (i 0) (i 1)

/-- The body's entry `(r, j)` over blocks that agree with the arrays: the tile of x with row `r` at row `b`, the padded
    operands whole. -/
theorem entry_of_blocks (x : Vec Ideal S4096x100 .f32) (w1p : Vec Ideal S100x128 .f32) (b1p : Vec Ideal S1x128 .f32)
    (w2p : Vec Ideal S128x128 .f32)
    (X : S262144x100.Idx → EReal) (W1P : S100x128.Idx → EReal) (B1P : S1x128.Idx → EReal) (W2P : S128x128.Idx → EReal)
    (r : Fin 4096) (j : Fin 128) (b : Fin 262144)
    (hx : ∀ i : Fin 100, x (ix2 r i) = X (ix2 b i)) (hw1 : w1p = W1P) (hb1 : b1p = B1P) (hw2 : w2p = W2P) :
    k0_pay1 x w1p b1p w2p (ix2 r j) = padAt X W1P B1P W2P b j := by
  subst hw1 hb1 hw2
  rw [payload_apply]
  unfold padAt
  simp only [hx]

theorem hz : (![0, 0] : Fin 2 → Nat) = fun _ => 0 := funext fun a => by fin_cases a <;> rfl

/-- The printed index maps over the sixty-four points: the tile of x and the output block move down the rows with the
    point, every other block is the whole of its array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem row_lt (t : Fin cfg0.N) (r : Fin 4096) : t.val * 4096 + r.val < 262144 := by
  have hN : cfg0.N = 64 := N_0
  have := t.isLt
  have := r.isLt
  omega

/-- Row `r` of point `t`'s tile of x is row `4096·t + r` of x. -/
theorem x_block (c : Dev nD) (t : Fin cfg0.N) (r : Fin 4096) (i : Fin 100) :
    (iblk m c 0 t : Vec Ideal S4096x100 .f32) (ix2 r i)
      = (V m c main_arg0 : S262144x100.Idx → EReal) (ix2 ⟨t.val * 4096 + r.val, row_lt t r⟩ i) := by
  obtain ⟨e00, e01, -⟩ := idx_facts t
  unfold iblk
  rw [View.read_apply]
  show V m c main_arg0 _ = V m c main_arg0 _
  refine congrArg (V m c main_arg0) ?_
  funext a
  apply Fin.ext
  match a with
  | ⟨0, _⟩ => show win0_0.index t (0 : Fin 2) * 4096 + 1 * r.val = t.val * 4096 + r.val; omega
  | ⟨1, _⟩ => show win0_0.index t (1 : Fin 2) * 100 + 1 * i.val = i.val; omega

/-- The block of the padded w1 is the whole of it, at every point. -/
theorem w1p_block (c : Dev nD) (t : Fin cfg0.N) :
    (iblk m c 1 t : Vec Ideal S100x128 .f32) = (V m c main_v2 : S100x128.Idx → EReal) := by
  obtain ⟨-, -, e10, e11, -⟩ := idx_facts t
  funext y
  unfold iblk
  rw [View.read_apply]
  show V m c main_v2 _ = V m c main_v2 y
  refine congrArg (V m c main_v2) ?_
  funext a
  apply Fin.ext
  match a with
  | ⟨0, _⟩ => show win0_1.index t (0 : Fin 2) * 100 + 1 * (y 0).val = (y 0).val; omega
  | ⟨1, _⟩ => show win0_1.index t (1 : Fin 2) * 128 + 1 * (y 1).val = (y 1).val; omega

/-- The block of the padded b1 is the whole of it. -/
theorem b1p_block (c : Dev nD) (t : Fin cfg0.N) :
    (iblk m c 2 t : Vec Ideal S1x128 .f32) = (V m c main_v9 : S1x128.Idx → EReal) := by
  obtain ⟨-, -, -, -, e20, e21, -⟩ := idx_facts t
  funext y
  unfold iblk
  rw [View.read_apply]
  show V m c main_v9 _ = V m c main_v9 y
  refine congrArg (V m c main_v9) ?_
  funext a
  apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The block of the padded w2 is the whole of it. -/
theorem w2p_block (c : Dev nD) (t : Fin cfg0.N) :
    (iblk m c 3 t : Vec Ideal S128x128 .f32) = (V m c main_v19 : S128x128.Idx → EReal) := by
  obtain ⟨-, -, -, -, -, -, e30, e31, -⟩ := idx_facts t
  funext y
  unfold iblk
  rw [View.read_apply]
  show V m c main_v19 _ = V m c main_v19 y
  refine congrArg (V m c main_v19) ?_
  funext a
  apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Entry `(r, j)` of the output block at point `t` sits at `(4096·t + r, j)` of the output array. -/
theorem out_emb (t : Fin cfg0.N) (r : Fin 4096) (j : Fin 128) :
    (((cfg0.win 4).blk t).view.emb (ix2 r j) : S262144x128.Idx) = ix2 ⟨t.val * 4096 + r.val, row_lt t r⟩ j := by
  obtain ⟨-, -, -, -, -, -, -, -, e40, e41⟩ := idx_facts t
  funext a
  apply Fin.ext
  match a with
  | ⟨0, _⟩ => show win0_4.index t (0 : Fin 2) * 4096 + 1 * r.val = t.val * 4096 + r.val; omega
  | ⟨1, _⟩ => show win0_4.index t (1 : Fin 2) * 128 + 1 * j.val = j.val; omega

/-- The body's entry at point `t`, over the point's blocks, is the padded result at the entry's place in the array. -/
theorem block_entry (c : Dev nD) (t : Fin cfg0.N) (y : S4096x128.Idx) :
    k0_pay1 (iblk m c 0 t) (iblk m c 1 t) (iblk m c 2 t) (iblk m c 3 t) y
      = padOut (V m c main_arg0) (V m c main_v2) (V m c main_v9) (V m c main_v19)
          (((cfg0.win 4).blk t).view.emb y) := by
  obtain ⟨r, j, rfl⟩ : ∃ (r : Fin 4096) (j : Fin 128), y = ix2 r j := ⟨y 0, y 1, eq_ix2 y⟩
  rw [out_emb]
  exact entry_of_blocks _ _ _ _ (V m c main_arg0) (V m c main_v2) (V m c main_v9) (V m c main_v19)
    r j ⟨t.val * 4096 + r.val, row_lt t r⟩ (fun i => x_block m c t r i) (w1p_block m c t) (b1p_block m c t)
    (w2p_block m c t)

/-- What point `t` writes back is block `t` of the padded result of the arrays as the region finds them. -/
theorem flushed_eq (c : Dev nD) (t : Fin cfg0.N) :
    (dats m 0 c).flushed 4 t = ((cfg0.win 4).blk t).view.read (Elt Ideal)
      (padOut (V m c main_arg0) (V m c main_v2) (V m c main_v9) (V m c main_v19)) := by
  show (cfg0.win 4).cut (grid0.coords t) ((dats m 0 c).after 4 t) = _
  rw [after0_4]
  unfold out0_4
  rw [View.canon_unit_zero hz]
  simp only [View.ld_unit_zero (S := S4096x100) hz, View.ld_unit_zero (S := S100x128) hz,
    View.ld_unit_zero (S := S1x128) hz, View.ld_unit_zero (S := S128x128) hz]
  funext j
  exact block_entry m c t j

/-- An index of the output array is in point `t`'s block iff each coordinate is in the block's range on its axis. -/
theorem mem_blk (t : Fin cfg0.N) (i : S262144x128.Idx) :
    i ∈ ((cfg0.win 4).blk t).view.set ↔ ∀ a : Fin 2, win0_4.index t a * S4096x128.size a ≤ (i a).val
      ∧ (i a).val < win0_4.index t a * S4096x128.size a + S4096x128.size a := by
  show i ∈ ((View.whole main_v20).slice (win0_4.rect t)).set ↔ _
  rw [View.set_slice_whole, Rect.mem_set_unit]
  exact Iff.rfl

/-- Row `r` is in the block of point `r / 4096`: the sixty-four blocks tile the array. -/
theorem cover (i : S262144x128.Idx) :
    ∃ t : Fin cfg0.N, (cfg0.win 4).flush t = true ∧ i ∈ ((cfg0.win 4).blk t).view.set := by
  have hi0 : (i 0).val < 262144 := (i 0).isLt
  have hi1 : (i 1).val < 128 := (i 1).isLt
  have hN : cfg0.N = 64 := N_0
  obtain ⟨t, ht⟩ : ∃ t : Fin cfg0.N, t.val = (i 0).val / 4096 := ⟨⟨(i 0).val / 4096, by omega⟩, rfl⟩
  obtain ⟨-, -, -, -, -, -, -, -, e40, e41⟩ := idx_facts t
  refine ⟨t, flush0_4 t, ?_⟩
  rw [mem_blk]
  intro a
  match a with
  | ⟨0, _⟩ =>
    show win0_4.index t (0 : Fin 2) * 4096 ≤ (i 0).val ∧ (i 0).val < win0_4.index t (0 : Fin 2) * 4096 + 4096
    omega
  | ⟨1, _⟩ =>
    show win0_4.index t (1 : Fin 2) * 128 ≤ (i 1).val ∧ (i 1).val < win0_4.index t (1 : Fin 2) * 128 + 128
    omega

/-- The output array after the run is the padded result of the arrays as the region finds them. -/
theorem final (c : Dev nD) : (dats m 0 c).arrAt 4 cfg0.N
    = padOut (V m c main_arg0) (V m c main_v2) (V m c main_v9) (V m c main_v19) :=
  (dats m 0 c).arrAt_eq_of_cover 4 _ (fun t _ => flushed_eq m c t) cover

end Cert.RefValue

end
-- ==== Proof.LibRefScatter.lean ====
/-
  A scatter whose body returns the update and whose updates are all one value ("set these cells to c"), read at an
  index: the value where some update lands, the operand elsewhere. Then the four index patterns of a grid's edits:
  one whole row, one whole column, a span of one row from a start column, and one row of a one-channel slab.
-/
import Idealize.ShloMosaic.Lib.ValueIdx
import Idealize.ShloMosaic.Lib.Pipeline.Value

namespace Cert.LibRefScatter

open Idealize.ShloMosaic Idealize.ShloMosaic.ValueIdx

/-- An update lands on operand index `i` exactly when, on every axis, its start (read signed, not clamped) plus its
    window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hi a
      have := congrArg (fun f => (f a).val) hi
      simp only at this
      have := h a
      omega
    · intro hi
      funext a
      refine Fin.ext ?_
      have := hi a
      show (d.start j idx a + (d.window j a : ℤ)).toNat = (i a).val
      omega
  · rename_i h
    constructor
    · intro hi; cases hi
    · intro hi
      exfalso
      refine h fun a => ?_
      have := hi a
      have := (i a).isLt
      omega

/-- A left fold of "set the cell the step names to c": a cell some step names ends at c. -/
theorem foldl_set_const {ι κ α : Type} [DecidableEq ι] (g : κ → Option ι) (c : α) (step : (ι → α) → κ → (ι → α))
    (hstep : ∀ r n i, step r n i = if g n = some i then c else r i) :
    ∀ (l : List κ) (x : ι → α) (i : ι), (∃ n ∈ l, g n = some i) → (l.foldl step x) i = c := by
  intro l
  induction l using List.reverseRecOn with
  | nil => intro x i h; simp at h
  | append_singleton l n ih =>
    intro x i h
    rw [List.foldl_append, List.foldl_cons, List.foldl_nil, hstep]
    by_cases hn : g n = some i
    · rw [if_pos hn]
    · rw [if_neg hn]
      refine ih x i ?_
      obtain ⟨m, hm, hg⟩ := h
      rcases List.mem_append.mp hm with hm | hm
      · exact ⟨m, hm, hg⟩
      · rw [List.mem_singleton] at hm; subst hm; exact absurd hg hn

theorem foldl_set_const_not {ι κ α : Type} [DecidableEq ι] (g : κ → Option ι) (c : α) (step : (ι → α) → κ → (ι → α))
    (hstep : ∀ r n i, step r n i = if g n = some i then c else r i) :
    ∀ (l : List κ) (x : ι → α) (i : ι), (¬ ∃ n ∈ l, g n = some i) → (l.foldl step x) i = x i := by
  intro l
  induction l using List.reverseRecOn with
  | nil => intro x i h; rfl
  | append_singleton l n ih =>
    intro x i h
    rw [List.foldl_append, List.foldl_cons, List.foldl_nil, hstep]
    have hn : ¬ g n = some i := fun hg => h ⟨n, by simp, hg⟩
    rw [if_neg hn]
    exact ih x i fun ⟨m, hm, hg⟩ => h ⟨m, List.mem_append_left _ hm, hg⟩

theorem scatter_step {s si u : Shape} {w : ℕ} {α : Type} (d : ScatterDims s si u) (idx : IVec si w) (c : α)
    (r : s.Idx → α) (n : Fin u.numel) (i : s.Idx) :
    (match d.resultIdx? (u.rowMajor.symm n) idx with
      | some i0 => fun i' => if i' = i0 then (fun (_ b : α) => b) (r i0) ((fun _ => c) (u.rowMajor.symm n)) else r i'
      | none => r) i = if d.resultIdx? (u.rowMajor.symm n) idx = some i then c else r i := by
  cases h : d.resultIdx? (u.rowMajor.symm n) idx with
  | none => simp
  | some i0 =>
    simp only [Option.some.injEq]
    by_cases e : i = i0
    · subst e; simp
    · rw [if_neg e, if_neg (fun e' => e e'.symm)]

/-- A scatter that overwrites with one value: the value where some update lands, the operand elsewhere. -/
theorem scatter_set_const_pos {s si u : Shape} {w : ℕ} {α : Type} (d : ScatterDims s si u) (x : s.Idx → α) (idx : IVec si w)
    (upd : u.Idx → α) (c : α) (hc : ∀ j, upd j = c) (i : s.Idx) (h : ∃ j : u.Idx, d.resultIdx? j idx = some i) :
    Host.scatter d (fun _ b => b) x idx upd i = c := by
  obtain rfl : upd = fun _ => c := funext hc
  unfold Host.scatter
  refine foldl_set_const (fun n => d.resultIdx? (u.rowMajor.symm n) idx) c _ (fun r n i => scatter_step d idx c r n i) _ x i ?_
  obtain ⟨j, h⟩ := h
  exact ⟨u.rowMajor j, List.mem_finRange _, by rw [Equiv.symm_apply_apply]; exact h⟩

theorem scatter_set_const_neg {s si u : Shape} {w : ℕ} {α : Type} (d : ScatterDims s si u) (x : s.Idx → α) (idx : IVec si w)
    (upd : u.Idx → α) (c : α) (hc : ∀ j, upd j = c) (i : s.Idx) (h : ¬ ∃ j : u.Idx, d.resultIdx? j idx = some i) :
    Host.scatter d (fun _ b => b) x idx upd i = x i := by
  obtain rfl : upd = fun _ => c := funext hc
  unfold Host.scatter
  refine foldl_set_const_not (fun n => d.resultIdx? (u.rowMajor.symm n) idx) c _ (fun r n i => scatter_step d idx c r n i) _ x i ?_
  rintro ⟨n, _, hn⟩
  exact h ⟨_, hn⟩

/-! ## One whole row -/

section Row
variable {n0 n1 w : Nat} {α : Type} (wf : ScatterDims.WF ⟨2, ![n0, n1]⟩ ⟨1, ![1]⟩ ⟨1, ![n1]⟩ [0] [0] [0] 0)

/-- `x.at[r, :].set(c)`: the start index names the row, the updates' axis is the window over the columns. -/
abbrev rowDims (n0 n1 : Nat) (wf : ScatterDims.WF ⟨2, ![n0, n1]⟩ ⟨1, ![1]⟩ ⟨1, ![n1]⟩ [0] [0] [0] 0) :
    ScatterDims ⟨2, ![n0, n1]⟩ ⟨1, ![1]⟩ ⟨1, ![n1]⟩ where
  updateWindowDims := [0]
  insertedWindowDims := [0]
  scatterDimsToOperandDims := [0]
  indexVectorDim := 0
  wf := wf

theorem row_start0 (j : (⟨1, ![n1]⟩ : Shape).Idx) (idx : IVec ⟨1, ![1]⟩ w) :
    (rowDims n0 n1 wf).start j idx 0 = (idx (ix1 0)).toInt := by
  unfold ScatterDims.start
  rw [dif_pos (show (0 : Fin 2) ∈ ([0] : List (Fin 2)) from by decide)]
  congr 2
  funext b; match b with | ⟨0, _⟩ => rfl

theorem row_resultIdx?_iff (j : (⟨1, ![n1]⟩ : Shape).Idx) (idx : IVec ⟨1, ![1]⟩ w) (i : (⟨2, ![n0, n1]⟩ : Shape).Idx) :
    (rowDims n0 n1 wf).resultIdx? j idx = some i ↔ (idx (ix1 0)).toInt = ((i 0).val : ℤ) ∧ (j 0).val = (i 1).val := by
  rw [resultIdx?_eq_some_iff]
  constructor
  · intro h
    have h0 := h 0
    have h1 := h 1
    rw [row_start0] at h0
    change (idx (ix1 0)).toInt + ((0 : ℕ) : ℤ) = _ at h0
    change (0 : ℤ) + (((j 0).val : ℕ) : ℤ) = _ at h1
    exact ⟨by omega, by omega⟩
  · rintro ⟨h0, h1⟩ a
    match a with
    | ⟨0, _⟩ =>
      show (rowDims n0 n1 wf).start j idx 0 + ((0 : ℕ) : ℤ) = ((i 0).val : ℤ)
      rw [row_start0]; omega
    | ⟨1, _⟩ =>
      show (0 : ℤ) + (((j 0).val : ℕ) : ℤ) = ((i 1).val : ℤ)
      omega

/-- The row set read at `i`: `c` on the named row, the operand elsewhere. -/
theorem scatter_row_apply (x : (⟨2, ![n0, n1]⟩ : Shape).Idx → α) (idx : IVec ⟨1, ![1]⟩ w) (upd : (⟨1, ![n1]⟩ : Shape).Idx → α)
    (c : α) (hc : ∀ j, upd j = c) (i : (⟨2, ![n0, n1]⟩ : Shape).Idx) :
    Host.scatter (rowDims n0 n1 wf) (fun _ b => b) x idx upd i
      = if (idx (ix1 0)).toInt = ((i 0).val : ℤ) then c else x i := by
  by_cases h : (idx (ix1 0)).toInt = ((i 0).val : ℤ)
  · rw [if_pos h]
    exact scatter_set_const_pos _ x idx upd c hc i ⟨ix1 (i 1), (row_resultIdx?_iff wf _ idx i).mpr ⟨h, rfl⟩⟩
  · rw [if_neg h]
    exact scatter_set_const_neg _ x idx upd c hc i fun ⟨j, hj⟩ => h ((row_resultIdx?_iff wf j idx i).mp hj).1

end Row

/-! ## One whole column -/

section Col
variable {n0 n1 w : Nat} {α : Type} (wf : ScatterDims.WF ⟨2, ![n0, n1]⟩ ⟨1, ![1]⟩ ⟨1, ![n0]⟩ [0] [1] [1] 0)

/-- `x.at[:, c].set(v)`: the start index names the column, the updates' axis is the window over the rows. -/
abbrev colDims (n0 n1 : Nat) (wf : ScatterDims.WF ⟨2, ![n0, n1]⟩ ⟨1, ![1]⟩ ⟨1, ![n0]⟩ [0] [1] [1] 0) :
    ScatterDims ⟨2, ![n0, n1]⟩ ⟨1, ![1]⟩ ⟨1, ![n0]⟩ where
  updateWindowDims := [0]
  insertedWindowDims := [1]
  scatterDimsToOperandDims := [1]
  indexVectorDim := 0
  wf := wf

theorem col_start1 (j : (⟨1, ![n0]⟩ : Shape).Idx) (idx : IVec ⟨1, ![1]⟩ w) :
    (colDims n0 n1 wf).start j idx 1 = (idx (ix1 0)).toInt := by
  unfold ScatterDims.start
  rw [dif_pos (show (1 : Fin 2) ∈ ([1] : List (Fin 2)) from by decide)]
  congr 2
  funext b; match b with | ⟨0, _⟩ => rfl

theorem col_resultIdx?_iff (j : (⟨1, ![n0]⟩ : Shape).Idx) (idx : IVec ⟨1, ![1]⟩ w) (i : (⟨2, ![n0, n1]⟩ : Shape).Idx) :
    (colDims n0 n1 wf).resultIdx? j idx = some i ↔ (idx (ix1 0)).toInt = ((i 1).val : ℤ) ∧ (j 0).val = (i 0).val := by
  rw [resultIdx?_eq_some_iff]
  constructor
  · intro h
    have h0 := h 0
    have h1 := h 1
    rw [col_start1] at h1
    change (idx (ix1 0)).toInt + ((0 : ℕ) : ℤ) = _ at h1
    change (0 : ℤ) + (((j 0).val : ℕ) : ℤ) = _ at h0
    exact ⟨by omega, by omega⟩
  · rintro ⟨h0, h1⟩ a
    match a with
    | ⟨0, _⟩ =>
      show (0 : ℤ) + (((j 0).val : ℕ) : ℤ) = ((i 0).val : ℤ)
      omega
    | ⟨1, _⟩ =>
      show (colDims n0 n1 wf).start j idx 1 + ((0 : ℕ) : ℤ) = ((i 1).val : ℤ)
      rw [col_start1]; omega

/-- The column set read at `i`: `c` on the named column, the operand elsewhere. -/
theorem scatter_col_apply (x : (⟨2, ![n0, n1]⟩ : Shape).Idx → α) (idx : IVec ⟨1, ![1]⟩ w) (upd : (⟨1, ![n0]⟩ : Shape).Idx → α)
    (c : α) (hc : ∀ j, upd j = c) (i : (⟨2, ![n0, n1]⟩ : Shape).Idx) :
    Host.scatter (colDims n0 n1 wf) (fun _ b => b) x idx upd i
      = if (idx (ix1 0)).toInt = ((i 1).val : ℤ) then c else x i := by
  by_cases h : (idx (ix1 0)).toInt = ((i 1).val : ℤ)
  · rw [if_pos h]
    exact scatter_set_const_pos _ x idx upd c hc i ⟨ix1 (i 0), (col_resultIdx?_iff wf _ idx i).mpr ⟨h, rfl⟩⟩
  · rw [if_neg h]
    exact scatter_set_const_neg _ x idx upd c hc i fun ⟨j, hj⟩ => h ((col_resultIdx?_iff wf j idx i).mp hj).1

end Col

/-! ## A span of one row -/

section Span
variable {n0 n1 m w : Nat} {α : Type} (wf : ScatterDims.WF ⟨2, ![n0, n1]⟩ ⟨1, ![2]⟩ ⟨1, ![m]⟩ [0] [0] [0, 1] 0)

/-- `x.at[r, c0:c0+m].set(v)`: the start index is the pair (row, first column), the updates' axis the window over the
    columns from there. -/
abbrev spanDims (n0 n1 m : Nat) (wf : ScatterDims.WF ⟨2, ![n0, n1]⟩ ⟨1, ![2]⟩ ⟨1, ![m]⟩ [0] [0] [0, 1] 0) :
    ScatterDims ⟨2, ![n0, n1]⟩ ⟨1, ![2]⟩ ⟨1, ![m]⟩ where
  updateWindowDims := [0]
  insertedWindowDims := [0]
  scatterDimsToOperandDims := [0, 1]
  indexVectorDim := 0
  wf := wf

theorem span_start0 (j : (⟨1, ![m]⟩ : Shape).Idx) (idx : IVec ⟨1, ![2]⟩ w) :
    (spanDims n0 n1 m wf).start j idx 0 = (idx (ix1 0)).toInt := by
  unfold ScatterDims.start
  rw [dif_pos (show (0 : Fin 2) ∈ ([0, 1] : List (Fin 2)) from by decide)]
  congr 2
  funext b; match b with | ⟨0, _⟩ => rfl

theorem span_start1 (j : (⟨1, ![m]⟩ : Shape).Idx) (idx : IVec ⟨1, ![2]⟩ w) :
    (spanDims n0 n1 m wf).start j idx 1 = (idx (ix1 1)).toInt := by
  unfold ScatterDims.start
  rw [dif_pos (show (1 : Fin 2) ∈ ([0, 1] : List (Fin 2)) from by decide)]
  congr 2
  funext b; match b with | ⟨0, _⟩ => rfl

theorem span_resultIdx?_iff (j : (⟨1, ![m]⟩ : Shape).Idx) (idx : IVec ⟨1, ![2]⟩ w) (i : (⟨2, ![n0, n1]⟩ : Shape).Idx) :
    (spanDims n0 n1 m wf).resultIdx? j idx = some i
      ↔ (idx (ix1 0)).toInt = ((i 0).val : ℤ) ∧ (idx (ix1 1)).toInt + ((j 0).val : ℤ) = ((i 1).val : ℤ) := by
  rw [resultIdx?_eq_some_iff]
  constructor
  · intro h
    have h0 := h 0
    have h1 := h 1
    rw [span_start0] at h0
    rw [span_start1] at h1
    change (idx (ix1 0)).toInt + ((0 : ℕ) : ℤ) = _ at h0
    change (idx (ix1 1)).toInt + (((j 0).val : ℕ) : ℤ) = _ at h1
    exact ⟨by omega, by omega⟩
  · rintro ⟨h0, h1⟩ a
    match a with
    | ⟨0, _⟩ =>
      show (spanDims n0 n1 m wf).start j idx 0 + ((0 : ℕ) : ℤ) = ((i 0).val : ℤ)
      rw [span_start0]; omega
    | ⟨1, _⟩ =>
      show (spanDims n0 n1 m wf).start j idx 1 + (((j 0).val : ℕ) : ℤ) = ((i 1).val : ℤ)
      rw [span_start1]; omega

/-- The span set read at `i`: `c` on the named row from the first column for `m` columns, the operand elsewhere. -/
theorem scatter_span_apply (x : (⟨2, ![n0, n1]⟩ : Shape).Idx → α) (idx : IVec ⟨1, ![2]⟩ w) (upd : (⟨1, ![m]⟩ : Shape).Idx → α)
    (c : α) (hc : ∀ j, upd j = c) (i : (⟨2, ![n0, n1]⟩ : Shape).Idx) :
    Host.scatter (spanDims n0 n1 m wf) (fun _ b => b) x idx upd i
      = if (idx (ix1 0)).toInt = ((i 0).val : ℤ) ∧ (idx (ix1 1)).toInt ≤ ((i 1).val : ℤ)
          ∧ ((i 1).val : ℤ) < (idx (ix1 1)).toInt + (m : ℤ) then c else x i := by
  by_cases h : (idx (ix1 0)).toInt = ((i 0).val : ℤ) ∧ (idx (ix1 1)).toInt ≤ ((i 1).val : ℤ)
          ∧ ((i 1).val : ℤ) < (idx (ix1 1)).toInt + (m : ℤ)
  · rw [if_pos h]
    obtain ⟨h0, h1, h2⟩ := h
    refine scatter_set_const_pos _ x idx upd c hc i ⟨ix1 ⟨(((i 1).val : ℤ) - (idx (ix1 1)).toInt).toNat, by omega⟩, ?_⟩
    refine (span_resultIdx?_iff wf _ idx i).mpr ⟨h0, ?_⟩
    show (idx (ix1 1)).toInt + (((((i 1).val : ℤ) - (idx (ix1 1)).toInt).toNat : ℕ) : ℤ) = ((i 1).val : ℤ)
    omega
  · rw [if_neg h]
    refine scatter_set_const_neg _ x idx upd c hc i fun ⟨j, hj⟩ => h ?_
    obtain ⟨h0, h1⟩ := (span_resultIdx?_iff wf j idx i).mp hj
    have := (j 0).isLt
    change (j 0).val < m at this
    exact ⟨h0, by omega, by omega⟩

end Span

/-! ## One row of a one-channel slab -/

section Slab
variable {n0 n1 w : Nat} {α : Type} (wf : ScatterDims.WF ⟨3, ![1, n0, n1]⟩ ⟨1, ![1]⟩ ⟨2, ![1, n1]⟩ [0, 1] [1] [1] 0)

/-- `x.at[:, r, :].set(v)` on a `[1, n0, n1]` array: the start index names the row, the updates' two axes are the
    windows over the channel and the columns. -/
abbrev slabDims (n0 n1 : Nat) (wf : ScatterDims.WF ⟨3, ![1, n0, n1]⟩ ⟨1, ![1]⟩ ⟨2, ![1, n1]⟩ [0, 1] [1] [1] 0) :
    ScatterDims ⟨3, ![1, n0, n1]⟩ ⟨1, ![1]⟩ ⟨2, ![1, n1]⟩ where
  updateWindowDims := [0, 1]
  insertedWindowDims := [1]
  scatterDimsToOperandDims := [1]
  indexVectorDim := 0
  wf := wf

theorem slab_start1 (j : (⟨2, ![1, n1]⟩ : Shape).Idx) (idx : IVec ⟨1, ![1]⟩ w) :
    (slabDims n0 n1 wf).start j idx 1 = (idx (ix1 0)).toInt := by
  unfold ScatterDims.start
  rw [dif_pos (show (1 : Fin 3) ∈ ([1] : List (Fin 3)) from by decide)]
  congr 2
  funext b; match b with | ⟨0, _⟩ => rfl

theorem slab_resultIdx?_iff (j : (⟨2, ![1, n1]⟩ : Shape).Idx) (idx : IVec ⟨1, ![1]⟩ w) (i : (⟨3, ![1, n0, n1]⟩ : Shape).Idx) :
    (slabDims n0 n1 wf).resultIdx? j idx = some i
      ↔ (idx (ix1 0)).toInt = ((i 1).val : ℤ) ∧ (j 0).val = (i 0).val ∧ (j 1).val = (i 2).val := by
  rw [resultIdx?_eq_some_iff]
  constructor
  · intro h
    have h0 := h 0
    have h1 := h 1
    have h2 := h 2
    rw [slab_start1] at h1
    change (0 : ℤ) + (((j 0).val : ℕ) : ℤ) = _ at h0
    change (idx (ix1 0)).toInt + ((0 : ℕ) : ℤ) = _ at h1
    change (0 : ℤ) + (((j 1).val : ℕ) : ℤ) = _ at h2
    exact ⟨by omega, by omega, by omega⟩
  · rintro ⟨h0, h1, h2⟩ a
    match a with
    | ⟨0, _⟩ =>
      show (0 : ℤ) + (((j 0).val : ℕ) : ℤ) = ((i 0).val : ℤ)
      omega
    | ⟨1, _⟩ =>
      show (slabDims n0 n1 wf).start j idx 1 + ((0 : ℕ) : ℤ) = ((i 1).val : ℤ)
      rw [slab_start1]; omega
    | ⟨2, _⟩ =>
      show (0 : ℤ) + (((j 1).val : ℕ) : ℤ) = ((i 2).val : ℤ)
      omega

/-- The slab's row set read at `i`: `c` on the named row, the operand elsewhere. -/
theorem scatter_slab_apply (x : (⟨3, ![1, n0, n1]⟩ : Shape).Idx → α) (idx : IVec ⟨1, ![1]⟩ w)
    (upd : (⟨2, ![1, n1]⟩ : Shape).Idx → α) (c : α) (hc : ∀ j, upd j = c) (i : (⟨3, ![1, n0, n1]⟩ : Shape).Idx) :
    Host.scatter (slabDims n0 n1 wf) (fun _ b => b) x idx upd i
      = if (idx (ix1 0)).toInt = ((i 1).val : ℤ) then c else x i := by
  by_cases h : (idx (ix1 0)).toInt = ((i 1).val : ℤ)
  · rw [if_pos h]
    exact scatter_set_const_pos _ x idx upd c hc i ⟨ix2 (i 0) (i 2), (slab_resultIdx?_iff wf _ idx i).mpr ⟨h, rfl, rfl⟩⟩
  · rw [if_neg h]
    exact scatter_set_const_neg _ x idx upd c hc i fun ⟨j, hj⟩ => h ((slab_resultIdx?_iff wf j idx i).mp hj).1

end Slab

end Cert.LibRefScatter
-- ==== Proof.LibScatterSet.lean ====
/-
  A scatter whose body returns the update (`x.at[…].set(v)`) read at an index, for updates that vary: where exactly one
  update lands the cell holds that update, where none lands it holds the operand. Then the index patterns of a padded
  copy: a block of columns from a start column, a block at a corner, one cell, and a span of one row.
-/
import Idealize.ShloMosaic.Lib.ValueIdx
import Idealize.ShloMosaic.Lib.Pipeline.Value
import proofs.«162523_g2000401138181295_pallasbulk_285_12_alg».proof.Proof.LibRefScatter

namespace Cert.LibScatterSet

open Idealize.ShloMosaic Idealize.ShloMosaic.ValueIdx
open Cert.LibRefScatter (resultIdx?_eq_some_iff)

/-- A left fold of "set the cell the step names to the step's value", read at a cell `i` on which every step that names
    it carries the value `c`, and some step names it: the cell ends at `c`. -/
theorem foldl_set_agree {ι κ α : Type} [DecidableEq ι] (g : κ → Option ι) (v : κ → α) (i : ι) (c : α)
    (step : (ι → α) → κ → (ι → α)) (hstep : ∀ r n, step r n i = if g n = some i then v n else r i) :
    ∀ (l : List κ) (x : ι → α), (∀ n ∈ l, g n = some i → v n = c) → (∃ n ∈ l, g n = some i) → (l.foldl step x) i = c := by
  intro l
  induction l using List.reverseRecOn with
  | nil => intro x _ h; simp at h
  | append_singleton l n ih =>
    intro x hv h
    rw [List.foldl_append, List.foldl_cons, List.foldl_nil, hstep]
    by_cases hn : g n = some i
    · rw [if_pos hn]; exact hv n (by simp) hn
    · rw [if_neg hn]
      refine ih x (fun k hk => hv k (List.mem_append_left _ hk)) ?_
      obtain ⟨k, hk, hg⟩ := h
      rcases List.mem_append.mp hk with hk | hk
      · exact ⟨k, hk, hg⟩
      · rw [List.mem_singleton] at hk; subst hk; exact absurd hg hn

/-- The same fold read at a cell no step names: the cell keeps its first contents. -/
theorem foldl_set_none {ι κ α : Type} [DecidableEq ι] (g : κ → Option ι) (v : κ → α) (i : ι)
    (step : (ι → α) → κ → (ι → α)) (hstep : ∀ r n, step r n i = if g n = some i then v n else r i) :
    ∀ (l : List κ) (x : ι → α), (∀ n ∈ l, g n ≠ some i) → (l.foldl step x) i = x i := by
  intro l
  induction l using List.reverseRecOn with
  | nil => intro x _; rfl
  | append_singleton l n ih =>
    intro x h
    rw [List.foldl_append, List.foldl_cons, List.foldl_nil, hstep, if_neg (h n (by simp))]
    exact ih x fun k hk => h k (List.mem_append_left _ hk)

/-- One step of the scatter's fold read at `i`. -/
theorem scatter_step_at {s si u : Shape} {w : ℕ} {α : Type} (d : ScatterDims s si u) (idx : IVec si w) (upd : u.Idx → α)
    (r : s.Idx → α) (n : Fin u.numel) (i : s.Idx) :
    (match d.resultIdx? (u.rowMajor.symm n) idx with
      | some i0 => fun i' => if i' = i0 then (fun (_ b : α) => b) (r i0) (upd (u.rowMajor.symm n)) else r i'
      | none => r) i = if d.resultIdx? (u.rowMajor.symm n) idx = some i then upd (u.rowMajor.symm n) else r i := by
  cases h : d.resultIdx? (u.rowMajor.symm n) idx with
  | none => simp
  | some i0 =>
    simp only [Option.some.injEq]
    by_cases e : i = i0
    · subst e; simp
    · rw [if_neg e, if_neg (fun e' => e e'.symm)]

/-- Where update `j` lands on `i` and no other update does, the scatter-set holds `upd j` at `i`. -/
theorem scatter_set_apply_of_lands {s si u : Shape} {w : ℕ} {α : Type} (d : ScatterDims s si u) (x : s.Idx → α)
    (idx : IVec si w) (upd : u.Idx → α) (i : s.Idx) (j : u.Idx) (hj : d.resultIdx? j idx = some i)
    (huniq : ∀ j', d.resultIdx? j' idx = some i → j' = j) :
    Host.scatter d (fun _ b => b) x idx upd i = upd j := by
  unfold Host.scatter
  refine foldl_set_agree (fun n => d.resultIdx? (u.rowMajor.symm n) idx) (fun n => upd (u.rowMajor.symm n)) i (upd j) _
    (fun r n => scatter_step_at d idx upd r n i) _ x ?_ ?_
  · intro n _ hn; rw [huniq _ hn]
  · exact ⟨u.rowMajor j, List.mem_finRange _, by rw [Equiv.symm_apply_apply]; exact hj⟩

/-- Where no update lands on `i`, the scatter-set holds the operand at `i`. -/
theorem scatter_set_apply_of_not_lands {s si u : Shape} {w : ℕ} {α : Type} (d : ScatterDims s si u) (x : s.Idx → α)
    (idx : IVec si w) (upd : u.Idx → α) (i : s.Idx) (h : ∀ j, d.resultIdx? j idx ≠ some i) :
    Host.scatter d (fun _ b => b) x idx upd i = x i := by
  unfold Host.scatter
  exact foldl_set_none (fun n => d.resultIdx? (u.rowMajor.symm n) idx) (fun n => upd (u.rowMajor.symm n)) i _
    (fun r n => scatter_step_at d idx upd r n i) _ x fun n _ => h _

/-! ## A block of columns from a start column: `x.at[:, c₀:c₀+m₁].set(v)` -/

section ColBlock
variable {n0 n1 m0 m1 w : Nat} {α : Type}
  (wf : ScatterDims.WF ⟨2, ![n0, n1]⟩ ⟨1, ![1]⟩ ⟨2, ![m0, m1]⟩ [0, 1] [] [1] 0)

/-- The one start index names the first column; both axes of the updates are windows. -/
abbrev colBlockDims (n0 n1 m0 m1 : Nat) (wf : ScatterDims.WF ⟨2, ![n0, n1]⟩ ⟨1, ![1]⟩ ⟨2, ![m0, m1]⟩ [0, 1] [] [1] 0) :
    ScatterDims ⟨2, ![n0, n1]⟩ ⟨1, ![1]⟩ ⟨2, ![m0, m1]⟩ where
  updateWindowDims := [0, 1]
  insertedWindowDims := []
  scatterDimsToOperandDims := [1]
  indexVectorDim := 0
  wf := wf

theorem colBlock_start0 (j : (⟨2, ![m0, m1]⟩ : Shape).Idx) (idx : IVec ⟨1, ![1]⟩ w) :
    (colBlockDims n0 n1 m0 m1 wf).start j idx 0 = 0 := by
  unfold ScatterDims.start
  rw [dif_neg (show ¬ (0 : Fin 2) ∈ ([1] : List (Fin 2)) from by decide)]

theorem colBlock_start1 (j : (⟨2, ![m0, m1]⟩ : Shape).Idx) (idx : IVec ⟨1, ![1]⟩ w) :
    (colBlockDims n0 n1 m0 m1 wf).start j idx 1 = (idx (ix1 0)).toInt := by
  unfold ScatterDims.start
  rw [dif_pos (show (1 : Fin 2) ∈ ([1] : List (Fin 2)) from by decide)]
  congr 2
  funext b; match b with | ⟨0, _⟩ => rfl

theorem colBlock_resultIdx?_iff (j : (⟨2, ![m0, m1]⟩ : Shape).Idx) (idx : IVec ⟨1, ![1]⟩ w)
    (i : (⟨2, ![n0, n1]⟩ : Shape).Idx) :
    (colBlockDims n0 n1 m0 m1 wf).resultIdx? j idx = some i
      ↔ (j 0).val = (i 0).val ∧ (idx (ix1 0)).toInt + ((j 1).val : ℤ) = ((i 1).val : ℤ) := by
  rw [resultIdx?_eq_some_iff]
  constructor
  · intro h
    have h0 := h 0
    have h1 := h 1
    rw [colBlock_start0] at h0
    rw [colBlock_start1] at h1
    change (0 : ℤ) + (((j 0).val : ℕ) : ℤ) = _ at h0
    change (idx (ix1 0)).toInt + (((j 1).val : ℕ) : ℤ) = _ at h1
    exact ⟨by omega, by omega⟩
  · rintro ⟨h0, h1⟩ a
    match a with
    | ⟨0, _⟩ =>
      show (colBlockDims n0 n1 m0 m1 wf).start j idx 0 + (((j 0).val : ℕ) : ℤ) = ((i 0).val : ℤ)
      rw [colBlock_start0]; omega
    | ⟨1, _⟩ =>
      show (colBlockDims n0 n1 m0 m1 wf).start j idx 1 + (((j 1).val : ℕ) : ℤ) = ((i 1).val : ℤ)
      rw [colBlock_start1]; omega

/-- The block set read at `i`, the start column being `c₀`: the update at `(i₀, i₁ - c₀)` inside the block, the
    operand elsewhere. -/
theorem scatter_colBlock_apply (x : (⟨2, ![n0, n1]⟩ : Shape).Idx → α) (idx : IVec ⟨1, ![1]⟩ w)
    (upd : (⟨2, ![m0, m1]⟩ : Shape).Idx → α) (c0 : ℕ) (hc : (idx (ix1 0)).toInt = (c0 : ℤ))
    (i : (⟨2, ![n0, n1]⟩ : Shape).Idx) :
    Host.scatter (colBlockDims n0 n1 m0 m1 wf) (fun _ b => b) x idx upd i
      = if h : (i 0).val < m0 ∧ c0 ≤ (i 1).val ∧ (i 1).val < c0 + m1
          then upd (ix2 ⟨(i 0).val, h.1⟩ ⟨(i 1).val - c0, by omega⟩) else x i := by
  by_cases h : (i 0).val < m0 ∧ c0 ≤ (i 1).val ∧ (i 1).val < c0 + m1
  · rw [dif_pos h]
    refine scatter_set_apply_of_lands _ x idx upd i _ ?_ ?_
    · refine (colBlock_resultIdx?_iff wf _ idx i).mpr ⟨rfl, ?_⟩
      rw [hc]
      show (c0 : ℤ) + (((i 1).val - c0 : ℕ) : ℤ) = ((i 1).val : ℤ)
      omega
    · intro j' hj'
      obtain ⟨e0, e1⟩ := (colBlock_resultIdx?_iff wf j' idx i).mp hj'
      rw [hc] at e1
      rw [eq_ix2 j']
      congr 1
      · exact Fin.ext e0
      · refine Fin.ext ?_
        show (j' 1).val = (i 1).val - c0
        omega
  · rw [dif_neg h]
    refine scatter_set_apply_of_not_lands _ x idx upd i fun j hj => h ?_
    obtain ⟨e0, e1⟩ := (colBlock_resultIdx?_iff wf j idx i).mp hj
    rw [hc] at e1
    have h0 : (j 0).val < m0 := (j 0).isLt
    have h1 : (j 1).val < m1 := (j 1).isLt
    exact ⟨by omega, by omega, by omega⟩

end ColBlock

/-! ## A block at a corner: `x.at[r₀:r₀+m₀, c₀:c₀+m₁].set(v)` -/

section Corner
variable {n0 n1 m0 m1 w : Nat} {α : Type}
  (wf : ScatterDims.WF ⟨2, ![n0, n1]⟩ ⟨1, ![2]⟩ ⟨2, ![m0, m1]⟩ [0, 1] [] [0, 1] 0)

/-- The start index is the pair (first row, first column); both axes of the updates are windows. -/
abbrev cornerDims (n0 n1 m0 m1 : Nat) (wf : ScatterDims.WF ⟨2, ![n0, n1]⟩ ⟨1, ![2]⟩ ⟨2, ![m0, m1]⟩ [0, 1] [] [0, 1] 0) :
    ScatterDims ⟨2, ![n0, n1]⟩ ⟨1, ![2]⟩ ⟨2, ![m0, m1]⟩ where
  updateWindowDims := [0, 1]
  insertedWindowDims := []
  scatterDimsToOperandDims := [0, 1]
  indexVectorDim := 0
  wf := wf

theorem corner_start0 (j : (⟨2, ![m0, m1]⟩ : Shape).Idx) (idx : IVec ⟨1, ![2]⟩ w) :
    (cornerDims n0 n1 m0 m1 wf).start j idx 0 = (idx (ix1 0)).toInt := by
  unfold ScatterDims.start
  rw [dif_pos (show (0 : Fin 2) ∈ ([0, 1] : List (Fin 2)) from by decide)]
  congr 2
  funext b; match b with | ⟨0, _⟩ => rfl

theorem corner_start1 (j : (⟨2, ![m0, m1]⟩ : Shape).Idx) (idx : IVec ⟨1, ![2]⟩ w) :
    (cornerDims n0 n1 m0 m1 wf).start j idx 1 = (idx (ix1 1)).toInt := by
  unfold ScatterDims.start
  rw [dif_pos (show (1 : Fin 2) ∈ ([0, 1] : List (Fin 2)) from by decide)]
  congr 2
  funext b; match b with | ⟨0, _⟩ => rfl

theorem corner_resultIdx?_iff (j : (⟨2, ![m0, m1]⟩ : Shape).Idx) (idx : IVec ⟨1, ![2]⟩ w)
    (i : (⟨2, ![n0, n1]⟩ : Shape).Idx) :
    (cornerDims n0 n1 m0 m1 wf).resultIdx? j idx = some i
      ↔ (idx (ix1 0)).toInt + ((j 0).val : ℤ) = ((i 0).val : ℤ) ∧ (idx (ix1 1)).toInt + ((j 1).val : ℤ) = ((i 1).val : ℤ) := by
  rw [resultIdx?_eq_some_iff]
  constructor
  · intro h
    have h0 := h 0
    have h1 := h 1
    rw [corner_start0] at h0
    rw [corner_start1] at h1
    change (idx (ix1 0)).toInt + (((j 0).val : ℕ) : ℤ) = _ at h0
    change (idx (ix1 1)).toInt + (((j 1).val : ℕ) : ℤ) = _ at h1
    exact ⟨by omega, by omega⟩
  · rintro ⟨h0, h1⟩ a
    match a with
    | ⟨0, _⟩ =>
      show (cornerDims n0 n1 m0 m1 wf).start j idx 0 + (((j 0).val : ℕ) : ℤ) = ((i 0).val : ℤ)
      rw [corner_start0]; omega
    | ⟨1, _⟩ =>
      show (cornerDims n0 n1 m0 m1 wf).start j idx 1 + (((j 1).val : ℕ) : ℤ) = ((i 1).val : ℤ)
      rw [corner_start1]; omega

/-- The block set read at `i`, the corner being `(r₀, c₀)`: the update at `(i₀ - r₀, i₁ - c₀)` inside the block, the
    operand elsewhere. -/
theorem scatter_corner_apply (x : (⟨2, ![n0, n1]⟩ : Shape).Idx → α) (idx : IVec ⟨1, ![2]⟩ w)
    (upd : (⟨2, ![m0, m1]⟩ : Shape).Idx → α) (r0 c0 : ℕ) (hr : (idx (ix1 0)).toInt = (r0 : ℤ))
    (hc : (idx (ix1 1)).toInt = (c0 : ℤ)) (i : (⟨2, ![n0, n1]⟩ : Shape).Idx) :
    Host.scatter (cornerDims n0 n1 m0 m1 wf) (fun _ b => b) x idx upd i
      = if h : (r0 ≤ (i 0).val ∧ (i 0).val < r0 + m0) ∧ c0 ≤ (i 1).val ∧ (i 1).val < c0 + m1
          then upd (ix2 ⟨(i 0).val - r0, by omega⟩ ⟨(i 1).val - c0, by omega⟩) else x i := by
  by_cases h : (r0 ≤ (i 0).val ∧ (i 0).val < r0 + m0) ∧ c0 ≤ (i 1).val ∧ (i 1).val < c0 + m1
  · rw [dif_pos h]
    refine scatter_set_apply_of_lands _ x idx upd i _ ?_ ?_
    · refine (corner_resultIdx?_iff wf _ idx i).mpr ⟨?_, ?_⟩
      · rw [hr]
        show (r0 : ℤ) + (((i 0).val - r0 : ℕ) : ℤ) = ((i 0).val : ℤ)
        omega
      · rw [hc]
        show (c0 : ℤ) + (((i 1).val - c0 : ℕ) : ℤ) = ((i 1).val : ℤ)
        omega
    · intro j' hj'
      obtain ⟨e0, e1⟩ := (corner_resultIdx?_iff wf j' idx i).mp hj'
      rw [hr] at e0
      rw [hc] at e1
      rw [eq_ix2 j']
      congr 1
      · refine Fin.ext ?_
        show (j' 0).val = (i 0).val - r0
        omega
      · refine Fin.ext ?_
        show (j' 1).val = (i 1).val - c0
        omega
  · rw [dif_neg h]
    refine scatter_set_apply_of_not_lands _ x idx upd i fun j hj => h ?_
    obtain ⟨e0, e1⟩ := (corner_resultIdx?_iff wf j idx i).mp hj
    rw [hr] at e0
    rw [hc] at e1
    have h0 : (j 0).val < m0 := (j 0).isLt
    have h1 : (j 1).val < m1 := (j 1).isLt
    exact ⟨⟨by omega, by omega⟩, by omega, by omega⟩

end Corner

/-! ## One cell: `x.at[r, c].set(v)` -/

section Cell
variable {n0 n1 w : Nat} {α : Type}
  (wf : ScatterDims.WF ⟨2, ![n0, n1]⟩ ⟨1, ![2]⟩ ⟨0, ![]⟩ [] [0, 1] [0, 1] 0)

/-- The start index is the cell; the update is one scalar. -/
abbrev cellDims (n0 n1 : Nat) (wf : ScatterDims.WF ⟨2, ![n0, n1]⟩ ⟨1, ![2]⟩ ⟨0, ![]⟩ [] [0, 1] [0, 1] 0) :
    ScatterDims ⟨2, ![n0, n1]⟩ ⟨1, ![2]⟩ ⟨0, ![]⟩ where
  updateWindowDims := []
  insertedWindowDims := [0, 1]
  scatterDimsToOperandDims := [0, 1]
  indexVectorDim := 0
  wf := wf

theorem cell_start0 (j : (⟨0, ![]⟩ : Shape).Idx) (idx : IVec ⟨1, ![2]⟩ w) :
    (cellDims n0 n1 wf).start j idx 0 = (idx (ix1 0)).toInt := by
  unfold ScatterDims.start
  rw [dif_pos (show (0 : Fin 2) ∈ ([0, 1] : List (Fin 2)) from by decide)]
  congr 2
  funext b; match b with | ⟨0, _⟩ => rfl

theorem cell_start1 (j : (⟨0, ![]⟩ : Shape).Idx) (idx : IVec ⟨1, ![2]⟩ w) :
    (cellDims n0 n1 wf).start j idx 1 = (idx (ix1 1)).toInt := by
  unfold ScatterDims.start
  rw [dif_pos (show (1 : Fin 2) ∈ ([0, 1] : List (Fin 2)) from by decide)]
  congr 2
  funext b; match b with | ⟨0, _⟩ => rfl

theorem cell_resultIdx?_iff (j : (⟨0, ![]⟩ : Shape).Idx) (idx : IVec ⟨1, ![2]⟩ w) (i : (⟨2, ![n0, n1]⟩ : Shape).Idx) :
    (cellDims n0 n1 wf).resultIdx? j idx = some i
      ↔ (idx (ix1 0)).toInt = ((i 0).val : ℤ) ∧ (idx (ix1 1)).toInt = ((i 1).val : ℤ) := by
  rw [resultIdx?_eq_some_iff]
  constructor
  · intro h
    have h0 := h 0
    have h1 := h 1
    rw [cell_start0] at h0
    rw [cell_start1] at h1
    change (idx (ix1 0)).toInt + ((0 : ℕ) : ℤ) = _ at h0
    change (idx (ix1 1)).toInt + ((0 : ℕ) : ℤ) = _ at h1
    exact ⟨by omega, by omega⟩
  · rintro ⟨h0, h1⟩ a
    match a with
    | ⟨0, _⟩ =>
      show (cellDims n0 n1 wf).start j idx 0 + ((0 : ℕ) : ℤ) = ((i 0).val : ℤ)
      rw [cell_start0]; omega
    | ⟨1, _⟩ =>
      show (cellDims n0 n1 wf).start j idx 1 + ((0 : ℕ) : ℤ) = ((i 1).val : ℤ)
      rw [cell_start1]; omega

/-- The cell set read at `i`: the scalar at the named cell, the operand elsewhere. -/
theorem scatter_cell_apply (x : (⟨2, ![n0, n1]⟩ : Shape).Idx → α) (idx : IVec ⟨1, ![2]⟩ w)
    (upd : (⟨0, ![]⟩ : Shape).Idx → α) (r0 c0 : ℕ) (hr : (idx (ix1 0)).toInt = (r0 : ℤ))
    (hc : (idx (ix1 1)).toInt = (c0 : ℤ)) (i : (⟨2, ![n0, n1]⟩ : Shape).Idx) :
    Host.scatter (cellDims n0 n1 wf) (fun _ b => b) x idx upd i
      = if (i 0).val = r0 ∧ (i 1).val = c0 then upd ix0 else x i := by
  by_cases h : (i 0).val = r0 ∧ (i 1).val = c0
  · rw [if_pos h]
    refine scatter_set_apply_of_lands _ x idx upd i ix0 ?_ fun j' _ => eq_ix0 j'
    refine (cell_resultIdx?_iff wf _ idx i).mpr ⟨?_, ?_⟩
    · rw [hr]; omega
    · rw [hc]; omega
  · rw [if_neg h]
    refine scatter_set_apply_of_not_lands _ x idx upd i fun j hj => h ?_
    obtain ⟨e0, e1⟩ := (cell_resultIdx?_iff wf j idx i).mp hj
    rw [hr] at e0
    rw [hc] at e1
    exact ⟨by omega, by omega⟩

end Cell

/-! ## A span of one row: `x.at[r, c₀:c₀+m].set(v)` -/

section Span
variable {n0 n1 m w : Nat} {α : Type} (wf : ScatterDims.WF ⟨2, ![n0, n1]⟩ ⟨1, ![2]⟩ ⟨1, ![m]⟩ [0] [0] [0, 1] 0)

open Cert.LibRefScatter (spanDims span_resultIdx?_iff)

/-- The span set read at `i`, the row being `r₀` and the first column `c₀`: the update at `i₁ - c₀` on the span, the
    operand elsewhere. -/
theorem scatter_span_set_apply (x : (⟨2, ![n0, n1]⟩ : Shape).Idx → α) (idx : IVec ⟨1, ![2]⟩ w)
    (upd : (⟨1, ![m]⟩ : Shape).Idx → α) (r0 c0 : ℕ) (hr : (idx (ix1 0)).toInt = (r0 : ℤ))
    (hc : (idx (ix1 1)).toInt = (c0 : ℤ)) (i : (⟨2, ![n0, n1]⟩ : Shape).Idx) :
    Host.scatter (spanDims n0 n1 m wf) (fun _ b => b) x idx upd i
      = if h : (i 0).val = r0 ∧ c0 ≤ (i 1).val ∧ (i 1).val < c0 + m
          then upd (ix1 ⟨(i 1).val - c0, by omega⟩) else x i := by
  by_cases h : (i 0).val = r0 ∧ c0 ≤ (i 1).val ∧ (i 1).val < c0 + m
  · rw [dif_pos h]
    refine scatter_set_apply_of_lands _ x idx upd i _ ?_ ?_
    · refine (span_resultIdx?_iff wf _ idx i).mpr ⟨?_, ?_⟩
      · rw [hr]; omega
      · rw [hc]
        show (c0 : ℤ) + (((i 1).val - c0 : ℕ) : ℤ) = ((i 1).val : ℤ)
        omega
    · intro j' hj'
      obtain ⟨e0, e1⟩ := (span_resultIdx?_iff wf j' idx i).mp hj'
      rw [hc] at e1
      rw [eq_ix1 j']
      congr 1
      refine Fin.ext ?_
      show (j' 0).val = (i 1).val - c0
      omega
  · rw [dif_neg h]
    refine scatter_set_apply_of_not_lands _ x idx upd i fun j hj => h ?_
    obtain ⟨e0, e1⟩ := (span_resultIdx?_iff wf j idx i).mp hj
    rw [hr] at e0
    rw [hc] at e1
    have h1 : (j 0).val < m := (j 0).isLt
    exact ⟨by omega, by omega, by omega⟩

end Span

end Cert.LibScatterSet
-- ==== Proof.RefPad.lean ====
/-
  The reference's three padded operands read at an entry. Each is an array of zeros into which a copy of an argument is
  set at the top-left corner, and for two of them one more edit on hidden lane 32:
    w1p(i, k) = w1(i, k) for k < 32, else 0;
    b1p(0, k) = b1(0, k) for k < 32, 1 at k = 32, else 0;
    w2p(k, o) = w2(k, o) for k < 32, b2(o) at k = 32, else 0            (o < 10).
  Also the start-index pair the edits use, two one-element vectors joined, read at its two positions, and the leading
  columns of a matrix read at an entry.
-/
import proofs.«162523_g2000401138181295_pallasbulk_285_12_alg».proof.Proof.LibScatterSet
import Idealize.ShloMosaic.Lib.ValueIdx
import Idealize.ShloMosaic.Lib.Pipeline.Value

namespace Cert.RefPad

open Idealize.ShloMosaic Idealize.ShloMosaic.ValueIdx
open Cert.LibScatterSet Cert.LibRefScatter

/-- Two one-element vectors joined, read at position 0: the first. -/
theorem pair_fst {α : Type} (a b : (⟨1, ![1]⟩ : Shape).Idx → α)
    (h : Shape.Concatenates [(⟨1, ![1]⟩ : Shape), ⟨1, ![1]⟩] ⟨1, ![2]⟩ 0) :
    concatenate ⟨1, ![2]⟩ 0 [⟨⟨1, ![1]⟩, a⟩, ⟨⟨1, ![1]⟩, b⟩] h (ix1 (0 : Fin 2)) = a (ix1 (0 : Fin 1)) :=
  concatenate_pair_apply_left (t := ⟨1, ![2]⟩) 0 a b h (ix1 (0 : Fin 2)) rfl (ix1 (0 : Fin 1))
    (fun d => by match d with | ⟨0, _⟩ => rfl)

/-- Read at position 1: the second. -/
theorem pair_snd {α : Type} (a b : (⟨1, ![1]⟩ : Shape).Idx → α)
    (h : Shape.Concatenates [(⟨1, ![1]⟩ : Shape), ⟨1, ![1]⟩] ⟨1, ![2]⟩ 0) :
    concatenate ⟨1, ![2]⟩ 0 [⟨⟨1, ![1]⟩, a⟩, ⟨⟨1, ![1]⟩, b⟩] h (ix1 (1 : Fin 2)) = b (ix1 (0 : Fin 1)) :=
  concatenate_pair_apply_right (t := ⟨1, ![2]⟩) 0 a b h (ix1 (1 : Fin 2)) rfl rfl (ix1 (0 : Fin 1))
    (fun d hd => by match d with | ⟨0, _⟩ => exact absurd rfl hd) rfl

/-- The leading columns of a matrix (a slice at offsets (0, 0) keeping every row): entry (p, q) is entry (p, q). -/
theorem leading_cols_apply {α : Type} {m n n' : ℕ} (x : (⟨2, ![m, n]⟩ : Shape).Idx → α)
    (h : (⟨2, ![m, n]⟩ : Shape).Slices ![0, 0] ⟨2, ![m, n']⟩) (p : Fin m) (q : Fin n') (hq : q.val < n) :
    extractStridedSlice ⟨2, ![m, n']⟩ ![0, 0] x h (ix2 p q) = x (ix2 p ⟨q.val, hq⟩) :=
  extractStridedSlice_apply _ x h _ _ fun a => by
    match a with
    | ⟨0, _⟩ => exact (Nat.zero_add _).symm
    | ⟨1, _⟩ => exact (Nat.zero_add _).symm

/-- The padded first weights: the copy of `w1` on hidden lanes below 32, zero above. -/
theorem pad_w1_apply {w : ℕ} (wf : ScatterDims.WF ⟨2, ![100, 128]⟩ ⟨1, ![1]⟩ ⟨2, ![100, 32]⟩ [0, 1] [] [1] 0)
    (z : (⟨2, ![100, 128]⟩ : Shape).Idx → EReal) (hz : ∀ i, z i = 0) (idx : IVec ⟨1, ![1]⟩ w)
    (hc : (idx (ix1 0)).toInt = ((0 : ℕ) : ℤ)) (w1 : (⟨2, ![100, 32]⟩ : Shape).Idx → EReal) (i : Fin 100) (k : Fin 128) :
    Host.scatter (colBlockDims 100 128 100 32 wf) (fun _ b => b) z idx w1 (ix2 i k)
      = if h : k.val < 32 then w1 (ix2 i ⟨k.val, h⟩) else 0 := by
  rw [scatter_colBlock_apply wf z idx w1 0 hc (ix2 i k)]
  by_cases h : k.val < 32
  · have hcond : ((ix2 i k) 0).val < 100 ∧ 0 ≤ ((ix2 i k) 1).val ∧ ((ix2 i k) 1).val < 0 + 32 :=
      ⟨i.isLt, Nat.zero_le _, by show k.val < 0 + 32; omega⟩
    have hR : (if h : k.val < 32 then w1 (ix2 i ⟨k.val, h⟩) else 0) = w1 (ix2 i ⟨k.val, h⟩) := by rw [dif_pos h]
    rw [hR]
    exact dif_pos hcond
  · have hcond : ¬ (((ix2 i k) 0).val < 100 ∧ 0 ≤ ((ix2 i k) 1).val ∧ ((ix2 i k) 1).val < 0 + 32) :=
      fun hh => h (by have h2 : k.val < 0 + 32 := hh.2.2; omega)
    have hR : (if h : k.val < 32 then w1 (ix2 i ⟨k.val, h⟩) else 0) = 0 := by rw [dif_neg h]
    rw [hR]
    exact (dif_neg hcond).trans (hz _)

/-- The padded first bias: the copy of `b1` on lanes below 32, the set value on lane 32, zero above. -/
theorem pad_b1_apply {w : ℕ} (wf1 : ScatterDims.WF ⟨2, ![1, 128]⟩ ⟨1, ![1]⟩ ⟨2, ![1, 32]⟩ [0, 1] [] [1] 0)
    (wf2 : ScatterDims.WF ⟨2, ![1, 128]⟩ ⟨1, ![2]⟩ ⟨0, ![]⟩ [] [0, 1] [0, 1] 0)
    (z : (⟨2, ![1, 128]⟩ : Shape).Idx → EReal) (hz : ∀ i, z i = 0)
    (idx1 : IVec ⟨1, ![1]⟩ w) (hc1 : (idx1 (ix1 0)).toInt = ((0 : ℕ) : ℤ))
    (idx2 : IVec ⟨1, ![2]⟩ w) (hr2 : (idx2 (ix1 0)).toInt = ((0 : ℕ) : ℤ)) (hc2 : (idx2 (ix1 1)).toInt = ((32 : ℕ) : ℤ))
    (b1 : (⟨2, ![1, 32]⟩ : Shape).Idx → EReal) (one : (⟨0, ![]⟩ : Shape).Idx → EReal) (k : Fin 128) :
    Host.scatter (cellDims 1 128 wf2) (fun _ b => b)
        (Host.scatter (colBlockDims 1 128 1 32 wf1) (fun _ b => b) z idx1 b1) idx2 one (ix2 (0 : Fin 1) k)
      = if h : k.val < 32 then b1 (ix2 (0 : Fin 1) ⟨k.val, h⟩) else if k.val = 32 then one ix0 else 0 := by
  rw [scatter_cell_apply wf2 _ idx2 one 0 32 hr2 hc2 (ix2 (0 : Fin 1) k)]
  by_cases h32 : k.val = 32
  · have hcond : ((ix2 (0 : Fin 1) k) 0).val = 0 ∧ ((ix2 (0 : Fin 1) k) 1).val = 32 := ⟨rfl, h32⟩
    have hlt : ¬ k.val < 32 := by omega
    have hR : (if h : k.val < 32 then b1 (ix2 (0 : Fin 1) ⟨k.val, h⟩) else if k.val = 32 then one ix0 else 0) = one ix0 := by
      rw [dif_neg hlt, if_pos h32]
    rw [hR]
    exact if_pos hcond
  · have hcond : ¬ (((ix2 (0 : Fin 1) k) 0).val = 0 ∧ ((ix2 (0 : Fin 1) k) 1).val = 32) := fun hh => h32 hh.2
    refine (if_neg hcond).trans ?_
    rw [scatter_colBlock_apply wf1 z idx1 b1 0 hc1 (ix2 (0 : Fin 1) k)]
    by_cases h : k.val < 32
    · have hc' : ((ix2 (0 : Fin 1) k) 0).val < 1 ∧ 0 ≤ ((ix2 (0 : Fin 1) k) 1).val ∧ ((ix2 (0 : Fin 1) k) 1).val < 0 + 32 :=
        ⟨Nat.zero_lt_one, Nat.zero_le _, by show k.val < 0 + 32; omega⟩
      have hR : (if h : k.val < 32 then b1 (ix2 (0 : Fin 1) ⟨k.val, h⟩) else if k.val = 32 then one ix0 else 0)
          = b1 (ix2 (0 : Fin 1) ⟨k.val, h⟩) := by rw [dif_pos h]
      rw [hR]
      exact dif_pos hc'
    · have hc' : ¬ (((ix2 (0 : Fin 1) k) 0).val < 1 ∧ 0 ≤ ((ix2 (0 : Fin 1) k) 1).val ∧ ((ix2 (0 : Fin 1) k) 1).val < 0 + 32) :=
        fun hh => h (by have h2 : k.val < 0 + 32 := hh.2.2; omega)
      have hR : (if h : k.val < 32 then b1 (ix2 (0 : Fin 1) ⟨k.val, h⟩) else if k.val = 32 then one ix0 else 0) = 0 := by
        rw [dif_neg h, if_neg h32]
      rw [hR]
      exact (dif_neg hc').trans (hz _)

/-- The padded second weights, on output columns below 10: the copy of `w2` on hidden lanes below 32, the second bias
    on lane 32, zero above. -/
theorem pad_w2_apply {w : ℕ} (wf1 : ScatterDims.WF ⟨2, ![128, 128]⟩ ⟨1, ![2]⟩ ⟨2, ![32, 10]⟩ [0, 1] [] [0, 1] 0)
    (wf2 : ScatterDims.WF ⟨2, ![128, 128]⟩ ⟨1, ![2]⟩ ⟨1, ![10]⟩ [0] [0] [0, 1] 0)
    (z : (⟨2, ![128, 128]⟩ : Shape).Idx → EReal) (hz : ∀ i, z i = 0)
    (idx1 : IVec ⟨1, ![2]⟩ w) (hr1 : (idx1 (ix1 0)).toInt = ((0 : ℕ) : ℤ)) (hc1 : (idx1 (ix1 1)).toInt = ((0 : ℕ) : ℤ))
    (idx2 : IVec ⟨1, ![2]⟩ w) (hr2 : (idx2 (ix1 0)).toInt = ((32 : ℕ) : ℤ)) (hc2 : (idx2 (ix1 1)).toInt = ((0 : ℕ) : ℤ))
    (w2 : (⟨2, ![32, 10]⟩ : Shape).Idx → EReal) (b2v : (⟨1, ![10]⟩ : Shape).Idx → EReal) (k : Fin 128) (o : Fin 10) :
    Host.scatter (spanDims 128 128 10 wf2) (fun _ b => b)
        (Host.scatter (cornerDims 128 128 32 10 wf1) (fun _ b => b) z idx1 w2) idx2 b2v
        (ix2 k (⟨o.val, by have := o.isLt; omega⟩ : Fin 128))
      = if h : k.val < 32 then w2 (ix2 ⟨k.val, h⟩ o) else if k.val = 32 then b2v (ix1 o) else 0 := by
  have ho : o.val < 10 := o.isLt
  rw [scatter_span_set_apply wf2 _ idx2 b2v 32 0 hr2 hc2 (ix2 k (⟨o.val, by omega⟩ : Fin 128))]
  by_cases h32 : k.val = 32
  · have hcond : ((ix2 k (⟨o.val, by omega⟩ : Fin 128)) 0).val = 32 ∧ 0 ≤ ((ix2 k (⟨o.val, by omega⟩ : Fin 128)) 1).val
        ∧ ((ix2 k (⟨o.val, by omega⟩ : Fin 128)) 1).val < 0 + 10 :=
      ⟨h32, Nat.zero_le _, by show o.val < 0 + 10; omega⟩
    have hlt : ¬ k.val < 32 := by omega
    have hR : (if h : k.val < 32 then w2 (ix2 ⟨k.val, h⟩ o) else if k.val = 32 then b2v (ix1 o) else 0) = b2v (ix1 o) := by
      rw [dif_neg hlt, if_pos h32]
    rw [hR]
    exact dif_pos hcond
  · have hcond : ¬ (((ix2 k (⟨o.val, by omega⟩ : Fin 128)) 0).val = 32 ∧ 0 ≤ ((ix2 k (⟨o.val, by omega⟩ : Fin 128)) 1).val
        ∧ ((ix2 k (⟨o.val, by omega⟩ : Fin 128)) 1).val < 0 + 10) := fun hh => h32 hh.1
    refine (dif_neg hcond).trans ?_
    rw [scatter_corner_apply wf1 z idx1 w2 0 0 hr1 hc1 (ix2 k (⟨o.val, by omega⟩ : Fin 128))]
    by_cases h : k.val < 32
    · have hc' : (0 ≤ ((ix2 k (⟨o.val, by omega⟩ : Fin 128)) 0).val ∧ ((ix2 k (⟨o.val, by omega⟩ : Fin 128)) 0).val < 0 + 32)
          ∧ 0 ≤ ((ix2 k (⟨o.val, by omega⟩ : Fin 128)) 1).val ∧ ((ix2 k (⟨o.val, by omega⟩ : Fin 128)) 1).val < 0 + 10 :=
        ⟨⟨Nat.zero_le _, by show k.val < 0 + 32; omega⟩, Nat.zero_le _, by show o.val < 0 + 10; omega⟩
      have hR : (if h : k.val < 32 then w2 (ix2 ⟨k.val, h⟩ o) else if k.val = 32 then b2v (ix1 o) else 0)
          = w2 (ix2 ⟨k.val, h⟩ o) := by rw [dif_pos h]
      rw [hR]
      exact dif_pos hc'
    · have hc' : ¬ ((0 ≤ ((ix2 k (⟨o.val, by omega⟩ : Fin 128)) 0).val ∧ ((ix2 k (⟨o.val, by omega⟩ : Fin 128)) 0).val < 0 + 32)
          ∧ 0 ≤ ((ix2 k (⟨o.val, by omega⟩ : Fin 128)) 1).val ∧ ((ix2 k (⟨o.val, by omega⟩ : Fin 128)) 1).val < 0 + 10) :=
        fun hh => h (by have h2 : k.val < 0 + 32 := hh.1.2; omega)
      have hR : (if h : k.val < 32 then w2 (ix2 ⟨k.val, h⟩ o) else if k.val = 32 then b2v (ix1 o) else 0) = 0 := by
        rw [dif_neg h, if_neg h32]
      rw [hR]
      exact (dif_neg hc').trans (hz _)

end Cert.RefPad
-- ==== Proof.RefRun.lean ====
/-
  The padded reference's whole program, read as a value. Before the region the host builds the padded operands: zeros
  with w1 set into hidden lanes 0–31; zeros with b1 set into lanes 0–31 and then 1 set at lane 32; zeros with w2 set into
  the top-left 32×10 corner and then b2 (as a vector) set along row 32. The region leaves the [262144, 128] array at the
  padded result of x and those; after it the host keeps output columns 0–9. Entry (b, o) of the program's result is
  therefore the 128-lane hidden sum at (b, o), which is the network's value.
-/
import proofs.«162523_g2000401138181295_pallasbulk_285_12_alg».proof.Proof.Gen.ReferenceIdeal.Frame
import proofs.«162523_g2000401138181295_pallasbulk_285_12_alg».proof.Proof.RefBlocks
import proofs.«162523_g2000401138181295_pallasbulk_285_12_alg».proof.Proof.RefPad
import proofs.«162523_g2000401138181295_pallasbulk_285_12_alg».proof.Proof.Spec
import Idealize.ShloMosaic.Lib.StableHlo.Run
import Idealize.ShloMosaic.Lib.ValueLayout
import Idealize.ShloMosaic.Lib.IdealHost

noncomputable section

namespace Cert.RefValue

open Cert.ReferenceIdeal Cert.ReferenceIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The start index 0 as a one-element vector of words. -/
abbrev start0 : IVec S1 32 := broadcastInDim S1 ![] bcast_S_S1 (constantI S_ 32 0#32)
/-- The start index 32. -/
abbrev start32 : IVec S1 32 := broadcastInDim S1 ![] bcast_S_S1 (constantI S_ 32 32#32)
/-- A (row, column) start pair. -/
abbrev startPair (a b : IVec S1 32) : IVec S2 32 := concatenate S2 0 [⟨S1, a⟩, ⟨S1, b⟩] concatenates_S1_S1_S2_d0

theorem start0_toInt : (start0 (ix1 0)).toInt = ((0 : ℕ) : ℤ) := by decide
theorem start32_toInt : (start32 (ix1 0)).toInt = ((32 : ℕ) : ℤ) := by decide
theorem startPair_fst (a b : IVec S1 32) : startPair a b (ix1 0) = a (ix1 0) := Cert.RefPad.pair_fst a b _
theorem startPair_snd (a b : IVec S1 32) : startPair a b (ix1 1) = b (ix1 0) := Cert.RefPad.pair_snd a b _

/-- The region finds the padded first weights: zeros with w1 set from hidden lane 0. -/
theorem V_w1p (c : Dev nD) : (V m c main_v2 : S100x128.Idx → EReal)
    = Host.scatter scatter_S100x128_S1_S100x32_01_n_1_0 (fun _ b => b)
        (broadcastInDim S100x128 ![] bcast_S_S100x128 (constant (F := Ideal) S_ .f32 0x00000000#32))
        start0 (m ((c : Thread nD τ).loc main_arg1)) := by
  show StableHlo.after hostOps0 (fun b => m (c, b)) (Proc.devRef .tc main_v2) = _
  after_results
  all_goals rfl

/-- It finds the padded first bias: zeros with b1 set from lane 0, then the constant 1.0 set at (0, 32). -/
theorem V_b1p (c : Dev nD) : (V m c main_v9 : S1x128.Idx → EReal)
    = Host.scatter scatter_S1x128_S2_S__n_01_01_0 (fun _ b => b)
        (Host.scatter scatter_S1x128_S1_S1x32_01_n_1_0 (fun _ b => b)
          (broadcastInDim S1x128 ![] bcast_S_S1x128 (constant (F := Ideal) S_ .f32 0x00000000#32))
          start0 (m ((c : Thread nD τ).loc main_arg2)))
        (startPair start0 start32)
        (constant (F := Ideal) S_ .f32 0x3F800000#32) := by
  show StableHlo.after hostOps0 (fun b => m (c, b)) (Proc.devRef .tc main_v9) = _
  after_results
  all_goals rfl

set_option maxHeartbeats 4000000 in
/-- It finds the padded second weights: zeros with w2 set from (0, 0), then b2 as a vector set along row 32 from
    column 0. -/
theorem V_w2p (c : Dev nD) : (V m c main_v19 : S128x128.Idx → EReal)
    = Host.scatter scatter_S128x128_S2_S10_0_0_01_0 (fun _ b => b)
        (Host.scatter scatter_S128x128_S2_S32x10_01_n_01_0 (fun _ b => b)
          (broadcastInDim S128x128 ![] bcast_S_S128x128 (constant (F := Ideal) S_ .f32 0x00000000#32))
          (startPair start0 start0)
          (m ((c : Thread nD τ).loc main_arg3)))
        (startPair start32 start0)
        (shapeCast S10 (m ((c : Thread nD τ).loc main_arg4)) shapeCasts_S1x10_S10) := by
  show StableHlo.after hostOps0 (fun b => m (c, b)) (Proc.devRef .tc main_v19) = _
  after_results
  all_goals rfl

/-- The padded first weights at an entry. -/
theorem w1p_entry (c : Dev nD) (i : Fin 100) (k : Fin 128) :
    (V m c main_v2 : S100x128.Idx → EReal) (ix2 i k)
      = (if h : k.val < 32 then (m ((c : Thread nD τ).loc main_arg1) : S100x32.Idx → EReal) (ix2 i ⟨k.val, h⟩) else 0 : EReal) := by
  rw [V_w1p]
  exact Cert.RefPad.pad_w1_apply (scatter_S100x128_S1_S100x32_01_n_1_0).wf _ (fun _ => Ideal.ofBits_zero_f32) start0
    start0_toInt _ i k

/-- The padded first bias at an entry. -/
theorem b1p_entry (c : Dev nD) (k : Fin 128) :
    (V m c main_v9 : S1x128.Idx → EReal) (ix2 (0 : Fin 1) k)
      = (if h : k.val < 32 then (m ((c : Thread nD τ).loc main_arg2) : S1x32.Idx → EReal) (ix2 (0 : Fin 1) ⟨k.val, h⟩)
        else if k.val = 32 then 1 else 0 : EReal) := by
  rw [V_b1p]
  refine (Cert.RefPad.pad_b1_apply (scatter_S1x128_S1_S1x32_01_n_1_0).wf (scatter_S1x128_S2_S__n_01_01_0).wf _
    (fun _ => Ideal.ofBits_zero_f32) start0 start0_toInt (startPair start0 start32)
    ((congrArg BitVec.toInt (startPair_fst start0 start32)).trans start0_toInt)
    ((congrArg BitVec.toInt (startPair_snd start0 start32)).trans start32_toInt) _ _ k).trans ?_
  have one : (constant (F := Ideal) S_ .f32 0x3F800000#32 : S_.Idx → EReal) ix0 = 1 := Ideal.ofBits_one_f32
  rw [one]

/-- The padded second weights at an entry of an output column below 10. -/
theorem w2p_entry (c : Dev nD) (k : Fin 128) (o : Fin 10) :
    (V m c main_v19 : S128x128.Idx → EReal) (ix2 k (⟨o.val, by have := o.isLt; omega⟩ : Fin 128))
      = (if h : k.val < 32 then (m ((c : Thread nD τ).loc main_arg3) : S32x10.Idx → EReal) (ix2 ⟨k.val, h⟩ o)
        else if k.val = 32 then (m ((c : Thread nD τ).loc main_arg4) : S1x10.Idx → EReal) (ix2 (0 : Fin 1) o) else 0 : EReal) := by
  rw [V_w2p]
  refine (Cert.RefPad.pad_w2_apply (scatter_S128x128_S2_S32x10_01_n_01_0).wf (scatter_S128x128_S2_S10_0_0_01_0).wf _
    (fun _ => Ideal.ofBits_zero_f32) (startPair start0 start0)
    ((congrArg BitVec.toInt (startPair_fst start0 start0)).trans start0_toInt)
    ((congrArg BitVec.toInt (startPair_snd start0 start0)).trans start0_toInt) (startPair start32 start0)
    ((congrArg BitVec.toInt (startPair_fst start32 start0)).trans start32_toInt)
    ((congrArg BitVec.toInt (startPair_snd start32 start0)).trans start0_toInt) _ _ k o).trans ?_
  rw [shapeCast_1a_a_apply]

/-- After the region the host keeps columns 0–9 of the region's output array: that is the program's result. -/
theorem tail_eq (c : Dev nD) :
    Pipeline.afterTail₀ cfgs (dats m) 0 (V0 m) [hostOps1] c main_v21
      = extractStridedSlice S262144x10 ![0, 0] ((dats m 0 c).arrAt 4 cfg0.N) slices_S262144x128_S262144x10_0_0 := by
  unfold Pipeline.afterTail₀
  show StableHlo.after hostOps1 _ (Proc.devRef .tc main_v21) = _
  after_results
  rw [Pipeline.withArrays_arr spec0 launch0.win.arr_inj c _ _ 4]

/-- Columns 0–9 of the padded result over operands padded as above are the network's value. -/
theorem padded_result (X : S262144x100.Idx → EReal) (W1 : S100x32.Idx → EReal) (B1 : S1x32.Idx → EReal)
    (W2 : S32x10.Idx → EReal) (B2 : S1x10.Idx → EReal)
    (W1P : S100x128.Idx → EReal) (B1P : S1x128.Idx → EReal) (W2P : S128x128.Idx → EReal)
    (hW1 : ∀ (i : Fin 100) (k : Fin 128), W1P (ix2 i k) = if h : k.val < 32 then W1 (ix2 i ⟨k.val, h⟩) else 0)
    (hB1 : ∀ k : Fin 128, B1P (ix2 (0 : Fin 1) k)
      = if h : k.val < 32 then B1 (ix2 (0 : Fin 1) ⟨k.val, h⟩) else if k.val = 32 then 1 else 0)
    (hW2 : ∀ (k : Fin 128) (o : Fin 10), W2P (ix2 k (⟨o.val, by have := o.isLt; omega⟩ : Fin 128))
      = if h : k.val < 32 then W2 (ix2 ⟨k.val, h⟩ o) else if k.val = 32 then B2 (ix2 (0 : Fin 1) o) else 0) :
    extractStridedSlice S262144x10 ![0, 0] (padOut X W1P B1P W2P) slices_S262144x128_S262144x10_0_0
      = Cert.Spec.mlp X W1 B1 W2 B2 := by
  funext i
  obtain ⟨b, o, rfl⟩ : ∃ (b : Fin 262144) (o : Fin 10), i = ix2 b o := ⟨i 0, i 1, eq_ix2 i⟩
  have ho : o.val < 128 := by have := o.isLt; omega
  refine (Cert.RefPad.leading_cols_apply (padOut X W1P B1P W2P) slices_S262144x128_S262144x10_0_0 b o ho).trans ?_
  show padAt X W1P B1P W2P b ⟨o.val, ho⟩ = Cert.Spec.mlpAt X W1 B1 W2 B2 b o
  unfold padAt
  exact Cert.Spec.padded_entry X W1 B1 W2 B2 W1P B1P W2P b o ⟨o.val, ho⟩ rfl hW1 hB1 (fun k => hW2 k o)

/-- The program's result is the network's value of the arguments as launched. -/
theorem result_eq (c : Dev nD) :
    Pipeline.afterTail₀ cfgs (dats m) 0 (V0 m) [hostOps1] c main_v21
      = Cert.Spec.mlp (m ((c : Thread nD τ).loc main_arg0)) (m ((c : Thread nD τ).loc main_arg1))
          (m ((c : Thread nD τ).loc main_arg2)) (m ((c : Thread nD τ).loc main_arg3))
          (m ((c : Thread nD τ).loc main_arg4)) := by
  rw [tail_eq, final, V_main_arg0]
  exact padded_result _ _ _ _ _ _ _ _ (w1p_entry m c) (b1p_entry m c) (w2p_entry m c)

/-- The run: every weakly fair execution terminates with the result array at the network's value of the arguments,
    the arguments unchanged. -/
theorem run : θ_run defs (onTc (τ := τ) (main (F := Ideal))) ⟨m, fun _ => 0, ρ⟩ fun r => ∀ c : Dev nD,
      r.2.mem ((c.tc : Thread nD τ).loc main_v21)
        = Cert.Spec.mlp (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v21 (Pipeline.mem_restRefs_of main_v21 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.RefValue

end
-- ==== Proof.lean ====
/-
  A two-layer perceptron y = max (x·w1 + b1) 0 · w2 + b2 on a batch of 262144 rows (100 inputs, 32 hidden units,
  10 outputs), computed two ways, is one function of the five arguments on the extended reals.

  One program works on transposed operands: it computes w2ᵀ · max (w1ᵀ·xᵀ + b1ᵀ) 0 + b2ᵀ over eight tiles of 32768 batch
  lanes and transposes the [10, 262144] result back. Entry (b, o) of its result is
      ∑ h<32, w2(h, o) · max (∑ i<100, w1(i, h) · x(b, i) + b1(0, h)) 0 + b2(0, o).
  The other pads the hidden and output widths to 128: it sets w1 into 128 hidden lanes (zero above lane 31), sets b1
  likewise and puts 1 on lane 32, sets w2 into a 128×128 array and b2 along its row 32; it computes
  max (x·w1p + b1p) 0 · w2p over sixty-four tiles of 4096 rows and keeps output columns 0–9. Hidden lane 32 is
  max (x·0 + 1) 0 = 1 on every row, so its term of the second product is 1 · b2(0, o): the second bias rides through
  the product. Lanes above 32 contribute max (0 + 0) 0 · 0 = 0.
  Both are ∑ h<32, max (∑ i<100, x(b, i) · w1(i, h) + b1(0, h)) 0 · w2(h, o) + b2(0, o): the products commute, and the
  128-lane sum regroups as the 32 real lanes, the bias lane and zeros. No step distributes a factor over a sum or
  cancels, so the entries need not be finite and the precondition is not opened; the narrowing casts to bf16 that the
  first program applies before its products are the identity on the extended reals.

  Each program's run (termination, no fault, its arguments unchanged) is its generated frame; what each region's output
  array holds after the run is read off that frame block by block, and the host operations around the region are read
  at an index.
-/
import proofs.«162523_g2000401138181295_pallasbulk_285_12_alg».proof.Defs
import proofs.«162523_g2000401138181295_pallasbulk_285_12_alg».proof.Proof.Gen.Kernel
import proofs.«162523_g2000401138181295_pallasbulk_285_12_alg».proof.Proof.Gen.Kernel.Frame
import proofs.«162523_g2000401138181295_pallasbulk_285_12_alg».proof.Proof.Gen.KernelIdeal
import proofs.«162523_g2000401138181295_pallasbulk_285_12_alg».proof.Proof.Gen.KernelIdeal.Frame
import proofs.«162523_g2000401138181295_pallasbulk_285_12_alg».proof.Proof.Gen.ReferenceIdeal
import proofs.«162523_g2000401138181295_pallasbulk_285_12_alg».proof.Proof.Gen.ReferenceIdeal.Frame
import proofs.«162523_g2000401138181295_pallasbulk_285_12_alg».proof.Proof.Gen.Pre_finite_inputs
import proofs.«162523_g2000401138181295_pallasbulk_285_12_alg».proof.Proof.KerRun
import proofs.«162523_g2000401138181295_pallasbulk_285_12_alg».proof.Proof.RefRun
import Idealize.ShloMosaic.Adequacy
import Idealize.ShloMosaic.Init

noncomputable section

namespace Cert.Proof

open Idealize.ShloMosaic Idealize.SL.Sem

/-- The word-level program runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- And the padded program. -/
theorem frame_referenceIdeal : Cert.frame_ReferenceIdeal := fun m ρ _ => Cert.ReferenceIdeal.Gen.frame m ρ

/-- Reading the first program on the extended reals rewrote none of its operations. -/
theorem preserves : Cert.preserves_Kernel_KernelIdeal := trivial

/-- From memories agreeing on the arguments both programs end with the network's value of those arguments. -/
theorem algebraic : Cert.algebraic_KernelIdeal_ReferenceIdeal := by
  intro m ρ m' ρ' _ hagree
  refine ⟨fun c => Cert.Spec.mlp
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KerValue.run m ρ, ?_⟩
  refine (θ_run Cert.ReferenceIdeal.defs _ _).mono (fun _ h c => ?_) (Cert.RefValue.run m' ρ')
  obtain ⟨h0, h1, h2, h3, h4⟩ := hagree c
  refine ⟨(h c).1.trans ?_, (h c).2⟩
  rw [h0, h1, h2, h3, h4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
